-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x8192 : Shape := ⟨2, ![8192, 8192]⟩
abbrev S8192 : Shape := ⟨1, ![8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192x1024 .f32) (main_arg1 : FVec F S8192x8192 .f32) (main_arg2 : IVec S8192 32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S8192x1024 : Shape := ⟨2, ![8192, 1024]⟩
abbrev S8192x8192 : Shape := ⟨2, ![8192, 8192]⟩
abbrev S8192 : Shape := ⟨1, ![8192]⟩
abbrev S8192x1 : Shape := ⟨2, ![8192, 1]⟩
abbrev S2048x2048 : Shape := ⟨2, ![2048, 2048]⟩
abbrev S2048x1 : Shape := ⟨2, ![2048, 1]⟩
abbrev S2048 : Shape := ⟨1, ![2048]⟩
abbrev S512x2048 : Shape := ⟨2, ![512, 2048]⟩
abbrev S512x1 : Shape := ⟨2, ![512, 1]⟩
abbrev S512x1024 : Shape := ⟨2, ![512, 1024]⟩
abbrev S2048x1024 : Shape := ⟨2, ![2048, 1024]⟩
abbrev S_ : Shape := ⟨0, ![]⟩

abbrev nBuf : Space → Nat
  | .hbm => 17
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x8192, .f32⟩
  | .hbm, ⟨2, _⟩ => ⟨S8192, .i32⟩
  | .hbm, ⟨3, _⟩ => ⟨S8192x1, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S8192x1024, .f32⟩
  | .hbm, ⟨8, _⟩ => ⟨S_, .i32⟩
  | .hbm, ⟨9, _⟩ => ⟨S8192, .i32⟩
  | .hbm, ⟨10, _⟩ => ⟨S8192, .i1⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S8192, .i32⟩
  | .hbm, ⟨15, _⟩ => ⟨S8192x1, .i32⟩
  | .hbm, ⟨16, _⟩ => ⟨S8192x1024, .f32⟩
  | .local _ .vmem, ⟨0, _⟩ => ⟨S2048x2048, .f32⟩
  | .local _ .vmem, ⟨1, _⟩ => ⟨S2048x2048, .f32⟩
  | .local _ .vmem, ⟨2, _⟩ => ⟨S2048x1, .f32⟩
  | .local _ .vmem, ⟨3, _⟩ => ⟨S2048x1, .f32⟩
  | .local _ .vmem, ⟨4, _⟩ => ⟨S512x2048, .f32⟩
  | .local _ .vmem, ⟨5, _⟩ => ⟨S512x2048, .f32⟩
  | .local _ .vmem, ⟨6, _⟩ => ⟨S8192x1024, .bf16⟩
  | .local _ .vmem, ⟨7, _⟩ => ⟨S512x1, .f32⟩
  | .local _ .vmem, ⟨8, _⟩ => ⟨S512x1, .f32⟩
  | .local _ .vmem, ⟨9, _⟩ => ⟨S512x1024, .f32⟩
  | .local _ .vmem, ⟨10, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![16, 4], ![false, false]⟩

def k1_mult1 (i : grid1.Coords) : BitVec 32 :=
  let arg1 : BitVec 32 := BitVec.ofNat 32 (i 1).val
  let c2048_i32 : BitVec 32 := 2048#32
  let v5 : BitVec 32 := Scalar.muli arg1 c2048_i32
  v5
def k1_off1 (i : grid1.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x2048_S2048x2048_0_0 : ∀ a, (![0, 0] : Fin 2 → Nat) a + S2048x2048.size a ≤ S2048x2048.size a
  h_S2048x2048 : 0 < S2048x2048.numel
  reduces_S2048x2048_S2048 : S2048x2048.Reduces [1] S2048
  shapeCasts_S2048_S2048x1 : S2048.ShapeCasts S2048x1
  bcast_S8192x1_S8192x1024_0_1 : S8192x1.BroadcastsInDim S8192x1024 (![0, 1] : Fin 2 → Fin S8192x1024.rank)
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S512x2048_S512x2048_0_0 : ∀ a, (![0, 0] : Fin 2 → Nat) a + S512x2048.size a ≤ S512x2048.size a
  h_S512x2048 : 0 < S512x2048.numel
  h_S2048x1024 : 0 < S2048x1024.numel
  shapeCasts_S2048x1024_S2048x1024 : S2048x1024.ShapeCasts S2048x1024
  shapeCasts_S512x1024_S512x1024 : S512x1024.ShapeCasts S512x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  bcast_S_S8192 : S_.BroadcastsInDim S8192 (![] : Fin 0 → Fin S8192.rank)
  bcast_S8192_S8192x1_0 : S8192.BroadcastsInDim S8192x1 (![0] : Fin 1 → Fin S8192x1.rank)
  dot_S512x2048_S2048x1024_S512x1024_1_0_0_1_n_n_wf : DotDims.WF S512x2048 S2048x1024 S512x1024 [1] [0] [0] [1] [] []
  scatter_S8192x1024_S8192x1_S8192x1024_1_0_0_1_wf : ScatterDims.WF S8192x1024 S8192x1 S8192x1024 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S8192x8192.size a
  hwx0_0 : ∀ i : grid0.Coords, EltTy.bits .f32 = 32 ∨ (Rect.block (s := S8192x8192) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S8192x1.size a
  hwx0_1 : ∀ i : grid0.Coords, EltTy.bits .f32 = 32 ∨ (Rect.block (s := S8192x1) S2048x1.size (cc0_transform_1 i) (hinb0_1 i)).WholeWords (EltTy.packing .f32)
  hrank1 : 0 < grid1.rank
  k1_mult1_dvd : ∀ i : grid1.Coords, 2048 ∣ (k1_mult1 i).toNat
  k1_off1_inb : ∀ i : grid1.Coords, ∀ a, (k1_off1 i) a + S2048x1024.size a ≤ S8192x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x8192.size a
  hwx1_0 : ∀ i : grid1.Coords, EltTy.bits .f32 = 32 ∨ (Rect.block (s := S8192x8192) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x1024.size a ≤ S8192x1024.size a
  hwx1_1 : ∀ i : grid1.Coords, EltTy.bits .bf16 = 32 ∨ (Rect.block (s := S8192x1024) S8192x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .f32 = 32 ∨ (Rect.block (s := S8192x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S8192x1024.size a
  hwx1_3 : ∀ i : grid1.Coords, EltTy.bits .f32 = 32 ∨ (Rect.block (s := S8192x1024) S512x1024.size (cc1_transform_3 i) (hinb1_3 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def scatter_S8192x1024_S8192x1_S8192x1024_1_0_0_1 : ScatterDims S8192x1024 S8192x1 S8192x1024 where
  updateWindowDims := [1]
  insertedWindowDims := [0]
  scatterDimsToOperandDims := [0]
  indexVectorDim := 1
  wf := scatter_S8192x1024_S8192x1_S8192x1024_1_0_0_1_wf

abbrev win0_0 : Pipeline.Window sig grid0 :=
  Pipeline.Window.ofSpec (Memref.whole main_arg1) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S8192x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S8192x8192 : Shape := ⟨2, ![8192, 8192]⟩
abbrev S8192 : Shape := ⟨1, ![8192]⟩
abbrev S_ : Shape := ⟨0, ![]⟩
abbrev S8192x1 : Shape := ⟨2, ![8192, 1]⟩
abbrev S1x8192 : Shape := ⟨2, ![1, 8192]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x8192, .f32⟩
  | .hbm, ⟨2, _⟩ => ⟨S8192, .i32⟩
  | .hbm, ⟨3, _⟩ => ⟨S_, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .i1⟩
  | .hbm, ⟨15, _⟩ => ⟨S_, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S8192x1, .f32⟩
  | .hbm, ⟨20, _⟩ => ⟨S8192x8192, .f32⟩
  | .hbm, ⟨21, _⟩ => ⟨S8192x8192, .f32⟩
  | .hbm, ⟨22, _⟩ => ⟨S1x8192, .f32⟩
  | .hbm, ⟨23, _⟩ => ⟨S8192x8192, .f32⟩
  | .hbm, ⟨24, _⟩ => ⟨S8192x8192, .f32⟩
  | .hbm, ⟨25, _⟩ => ⟨S8192x1024, .f32⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S8192x1, .i32⟩
  | .hbm, ⟨34, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_v5 : Ref sig .tc := ⟨.hbm, 14, rfl⟩
abbrev main_cst_2 : Ref sig .tc := ⟨.hbm, 15, rfl⟩
abbrev main_call1_v0 : Ref sig .tc := ⟨.hbm, 16, rfl⟩
abbrev main_call1_v1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  dot_S8192x8192_S8192x1024_S8192x1024_1_0_0_1_n_n_wf : DotDims.WF S8192x8192 S8192x1024 S8192x1024 [1] [0] [0] [1] [] []
  scatter_S8192x1024_S8192x1_S8192x1024_1_0_0_1_wf : ScatterDims.WF S8192x1024 S8192x1 S8192x1024 [1] [0] [0] 1

variable [Facts₀]

def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf
def scatter_S8192x1024_S8192x1_S8192x1024_1_0_0_1 : ScatterDims S8192x1024 S8192x1 S8192x1024 where
  updateWindowDims := [1]
  insertedWindowDims := [0]
  scatterDimsToOperandDims := [0]
  indexVectorDim := 1
  wf := scatter_S8192x1024_S8192x1_S8192x1024_1_0_0_1_wf

class Facts : Prop extends Facts₀ where

variable [Facts]
-- ==== Proof.Run.lean ====
import proofs.«146034_j69793218560049_2_alg».proof.Proof.Gen.KernelIdeal.Frame

set_option maxRecDepth 16384

noncomputable section

/-!
  The idealized kernel program's run with its result named: every weakly fair execution terminates without a fault,
  the result buffer holds what the last host operation writes from the contents the second kernel leaves, and the
  three argument arrays are as launched.
-/
namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v11) = W4 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v11 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.GcnRun
end
-- ==== Proof.Forms.lean ====
/-
  The two arrangements of the normalized aggregation, as functions of the feature matrix X [8192, 1024] and the
  adjacency matrix M [8192, 8192] over the extended reals.

  Both sides scale M by the inverse square roots of its row sums: with s(p) = 0 + sum over k of M(p, k) the degree of
  row p, the normalizer is nrm(s(p) + eps), where nrm maps a value to its inverse square root and an infinite result to 0.
  One side sums each row in four column blocks of 2048 and accumulates the products block by block, scaling the
  features by the column's normalizer before the product and the accumulated row by the row's normalizer after it;
  the other side scales every entry of M by both normalizers and takes one product over all 8192 columns.
-/
import Idealize.ShloMosaic.Lib.ValueIdx
import Idealize.ShloMosaic.PureOps.Ideal
import Idealize.ShloMosaic.PureOps.Ideal.Laws

noncomputable section

namespace Cert.Gcn

open Idealize.ShloMosaic Idealize.ShloMosaic.ValueIdx
open scoped BigOperators

/-- The feature matrix's shape and the adjacency matrix's shape. -/
abbrev SX : Shape := ⟨2, ![8192, 1024]⟩
abbrev SM : Shape := ⟨2, ![8192, 8192]⟩

/-- Column 2048·b + k: position k of the b-th of the four column blocks. -/
def col (b : Fin 4) (k : Fin 2048) : Fin 8192 := ⟨2048 * b.val + k.val, by have := b.isLt; have := k.isLt; omega⟩

/-- The float words both programs spell: +0.0, the epsilon, +infinity, -0.5. -/
abbrev zeroW : EReal := Ideal.ofBits .f32 0x00000000#32
abbrev epsW : EReal := Ideal.ofBits .f32 0x322BCC77#32
abbrev infW : EReal := Ideal.ofBits .f32 0x7F800000#32
abbrev mhalfW : EReal := Ideal.ofBits .f32 0xBF000000#32

/-- An infinite value (its magnitude equal to +infinity) is replaced by zero; any other is kept. -/
def clampInf (r : EReal) : EReal := Scalar.select (Ideal.cmp .oeq (max r (-r)) infW) zeroW r

/-- The normalizer by the inverse square root, and by the power -1/2. -/
def nrmRsqrt (s : EReal) : EReal := clampInf (Ideal.rsqrt (s + epsW))
def nrmPow (s : EReal) : EReal := clampInf (Ideal.pow (s + epsW) mhalfW)

/-- Row p's sum over column block b. -/
def rowPart (M : SM.Idx → EReal) (p : Fin 8192) (b : Fin 4) : EReal := ∑ k : Fin 2048, M (ix2 p (col b k))

/-- Row p's degree accumulated block by block from zero, and its normalizer. -/
def degBlocks (M : SM.Idx → EReal) (p : Fin 8192) : EReal :=
  (((zeroW + rowPart M p 0) + rowPart M p 1) + rowPart M p 2) + rowPart M p 3
def dBlocks (M : SM.Idx → EReal) (p : Fin 8192) : EReal := nrmRsqrt (degBlocks M p)

/-- Block b's share of entry (p, q) of M times the column-scaled features. -/
def prodPart (X : SX.Idx → EReal) (M : SM.Idx → EReal) (p : Fin 8192) (q : Fin 1024) (b : Fin 4) : EReal :=
  ∑ k : Fin 2048, M (ix2 p (col b k)) * (X (ix2 (col b k) q) * dBlocks M (col b k))

/-- The blockwise arrangement: the four shares accumulated from zero, then scaled by row p's normalizer. -/
def outBlocks (X : SX.Idx → EReal) (M : SM.Idx → EReal) (i : SX.Idx) : EReal :=
  ((((zeroW + prodPart X M (i 0) (i 1) 0) + prodPart X M (i 0) (i 1) 1) + prodPart X M (i 0) (i 1) 2)
    + prodPart X M (i 0) (i 1) 3) * dBlocks M (i 0)

/-- Row p's degree as one sum from zero, and its normalizer by the power -1/2. -/
def degWhole (M : SM.Idx → EReal) (p : Fin 8192) : EReal := zeroW + ∑ k : Fin 8192, M (ix2 p k)
def dWhole (M : SM.Idx → EReal) (p : Fin 8192) : EReal := nrmPow (degWhole M p)

/-- The whole arrangement: every entry of M scaled by its row's and its column's normalizer, one product. -/
def outWhole (X : SX.Idx → EReal) (M : SM.Idx → EReal) (i : SX.Idx) : EReal :=
  ∑ k : Fin 8192, ((M (ix2 (i 0) k) * dWhole M (i 0)) * dWhole M k) * X (ix2 k (i 1))

end Cert.Gcn

end
-- ==== Proof.LibERealSums.lean ====
/-
  Finite sums and maxima of real numbers inside the extended reals.

  The coercion of the reals into the extended reals carries a finite sum to the sum and a maximum to the maximum;
  and folding `max` from `-∞` over a nonempty finite family of reals gives a real. These are what turns a row
  statistic of finite inputs (a sum, a maximum, a log-sum-exp) into a real number, where the extended reals'
  failures of distributivity and cancellation at the infinities cannot occur.
-/
import Mathlib.Data.EReal.Basic
import Mathlib.Algebra.BigOperators.Group.Finset.Basic
import Mathlib.Data.Finset.Fold

noncomputable section

open scoped BigOperators

namespace Cert.Lib.ERealSums

/-- A finite sum of coerced reals is the coercion of the real sum. -/
theorem coe_sum_real {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of two coerced reals is the coercion of their maximum. -/
theorem coe_max_real (a b : ℝ) : max (a : EReal) (b : EReal) = ((max a b : ℝ) : EReal) :=
  (EReal.coe_strictMono.monotone.map_max).symm

/-- Folding `max` from `-∞` over a nonempty family of reals gives a real. -/
theorem fold_max_real {ι : Type*} (s : Finset ι) (hs : s.Nonempty) (a : ι → ℝ) :
    ∃ M : ℝ, s.fold max ⊥ (fun i => ((a i : ℝ) : EReal)) = (M : EReal) := by
  induction hs using Finset.Nonempty.cons_induction with
  | singleton i => exact ⟨a i, by rw [Finset.fold_singleton, max_bot_right]⟩
  | cons i s hi hs ih =>
    obtain ⟨M, hM⟩ := ih
    exact ⟨max (a i) M, by rw [Finset.fold_cons, hM, coe_max_real]⟩

end Cert.Lib.ERealSums

end
-- ==== Proof.Algebra.lean ====
/-
  The pure mathematics behind the agreement of the two arrangements of the normalized aggregation.

  1. The normalizer. For every extended real x, the power x^(-1/2) and the inverse square root 1/√x agree once an
     infinite value is replaced by zero: at -∞ both are -∞; at +∞ both are 0; at a negative real the inverse square
     root is -∞ (replaced by 0) and the real power is exp(-(log|x|)/2)·cos(-π/2) = 0; at 0 the inverse square root
     is +∞ (replaced by 0) and the real power 0^(-1/2) is 0 by convention; at a positive real both are (√x)⁻¹.
     In every case the clamped value is a real number.
  2. Re-indexing. The map (b, k) ↦ 2048·b + k is a bijection from 4 × 2048 onto the 8192 columns, so a sum over the
     columns is the sum over the four blocks of the sums over each block; accumulated from zero, block after block,
     it is the whole sum from zero by associativity.
  3. The product. With real entries every normalizer is a real (by 1), so every term of either arrangement is a
     real; in the reals, (0 + Σ_b Σ_k m(p,c)·(x(c,q)·d(c)))·d(p) with c = 2048·b + k equals Σ_k ((m(p,k)·d(p))·d(k))·x(k,q)
     by the re-indexing, distributivity and commutativity. The passage through the reals is needed: on the extended
     reals the product does not distribute over a sum at the infinities.
-/
import proofs.«146034_j69793218560049_2_alg».proof.Proof.Forms
import proofs.«146034_j69793218560049_2_alg».proof.Proof.LibERealSums

noncomputable section

namespace Cert.Gcn

open Idealize.ShloMosaic Idealize.ShloMosaic.ValueIdx
open scoped BigOperators

namespace Algebra

/-! ### The float words, as extended reals -/

/-- The word +0.0 denotes 0. -/
theorem zeroW_eq : zeroW = 0 := Ideal.ofBits_zero_f32

/-- The word with an all-ones exponent and a zero fraction denotes +infinity. -/
theorem infW_eq : infW = ⊤ := by
  simp [infW, Ideal.ofBits, Ideal.ieee]

/-- The word -0.5 denotes the real -1/2. -/
theorem mhalfW_eq : mhalfW = ((-(1/2) : ℝ) : EReal) := by
  simp [mhalfW, Ideal.ofBits, Ideal.ieee, -EReal.coe_mul]; norm_num

/-! ### The clamp at its three kinds of argument -/

/-- A real is kept: its magnitude is a real, hence not +infinity. -/
theorem clampInf_coe (c : ℝ) : clampInf (c : EReal) = (c : EReal) := by
  have h : max (c : EReal) (-(c : EReal)) ≠ ⊤ := by
    rcases max_choice (c : EReal) (-(c : EReal)) with h | h <;> rw [h]
    · exact EReal.coe_ne_top c
    · rw [← EReal.coe_neg]; exact EReal.coe_ne_top _
  unfold clampInf
  rw [infW_eq]
  simp [Scalar.select, Ideal.cmp, h]

/-- +infinity is replaced by 0. -/
theorem clampInf_top : clampInf ⊤ = 0 := by
  unfold clampInf
  rw [infW_eq, zeroW_eq]
  simp [Scalar.select, Ideal.cmp]

/-- -infinity is replaced by 0: its magnitude max ⊥ ⊤ is +infinity. -/
theorem clampInf_bot : clampInf ⊥ = 0 := by
  unfold clampInf
  rw [infW_eq, zeroW_eq]
  simp [Scalar.select, Ideal.cmp]

theorem clampInf_zero : clampInf 0 = 0 := by
  rw [← EReal.coe_zero]; exact clampInf_coe 0

/-! ### The power -1/2 and the inverse square root agree after the clamp -/

/-- On the reals, rpow at -1/2: zero for a negative base (the cosine factor vanishes), zero at zero,
    the reciprocal of the square root at a positive base. -/
theorem rpow_mhalf_neg {r : ℝ} (hr : r < 0) : Real.rpow r (-(1/2)) = 0 := by
  show r ^ (-(1/2) : ℝ) = 0
  rw [Real.rpow_def_of_neg hr]
  have : Real.cos (-(1/2) * Real.pi) = 0 := by
    rw [show (-(1/2) * Real.pi : ℝ) = -(Real.pi / 2) by ring, Real.cos_neg, Real.cos_pi_div_two]
  rw [this, mul_zero]

theorem rpow_mhalf_zero : Real.rpow 0 (-(1/2)) = 0 := by
  show (0 : ℝ) ^ (-(1/2) : ℝ) = 0
  exact Real.zero_rpow (by norm_num)

theorem rpow_mhalf_pos {r : ℝ} (hr : 0 < r) : Real.rpow r (-(1/2)) = (Real.sqrt r)⁻¹ := by
  show r ^ (-(1/2) : ℝ) = (Real.sqrt r)⁻¹
  rw [Real.rpow_neg hr.le, Real.sqrt_eq_rpow]

/-- The clamp of the inverse square root is always a real: 0 off the positive reals. -/
theorem clamp_rsqrt_coe_neg {r : ℝ} (hr : r < 0) : clampInf (Ideal.rsqrt (r : EReal)) = 0 := by
  rw [Ideal.rsqrt_coe, if_pos hr, clampInf_bot]

theorem clamp_rsqrt_coe_zero : clampInf (Ideal.rsqrt ((0 : ℝ) : EReal)) = 0 := by
  rw [Ideal.rsqrt_coe, if_neg (lt_irrefl _), if_pos rfl, clampInf_top]

theorem clamp_rsqrt_coe_pos {r : ℝ} (hr : 0 < r) :
    clampInf (Ideal.rsqrt (r : EReal)) = (((Real.sqrt r)⁻¹ : ℝ) : EReal) := by
  rw [Ideal.rsqrt_coe, if_neg (not_lt.mpr hr.le), if_neg hr.ne', clampInf_coe]

/-- For every extended real, the clamped power -1/2 is the clamped inverse square root. -/
theorem clamp_pow_eq_clamp_rsqrt (x : EReal) : clampInf (Ideal.pow x mhalfW) = clampInf (Ideal.rsqrt x) := by
  rw [mhalfW_eq]
  induction x using EReal.rec with
  | bot => rw [Ideal.pow_bot, Ideal.rsqrt_bot]
  | top =>
    have h1 : ¬ (0 : EReal) < ((-(1/2) : ℝ) : EReal) := by
      rw [← EReal.coe_zero, EReal.coe_lt_coe_iff]; norm_num
    have h2 : ((-(1/2) : ℝ) : EReal) ≠ 0 := by
      rw [← EReal.coe_zero, Ne, EReal.coe_eq_coe_iff]; norm_num
    rw [Ideal.pow_top, if_neg h1, if_neg h2, Ideal.rsqrt_top]
  | coe r =>
    rw [Ideal.pow_coe_coe]
    rcases lt_trichotomy r 0 with hr | hr | hr
    · rw [rpow_mhalf_neg hr, clamp_rsqrt_coe_neg hr, EReal.coe_zero, clampInf_zero]
    · subst hr
      rw [rpow_mhalf_zero, clamp_rsqrt_coe_zero, EReal.coe_zero, clampInf_zero]
    · rw [rpow_mhalf_pos hr, clamp_rsqrt_coe_pos hr, clampInf_coe]

/-- The clamped inverse square root is a real at every extended real. -/
theorem clamp_rsqrt_real (x : EReal) : ∃ r : ℝ, clampInf (Ideal.rsqrt x) = (r : EReal) := by
  induction x using EReal.rec with
  | bot => exact ⟨0, by rw [Ideal.rsqrt_bot, clampInf_bot, EReal.coe_zero]⟩
  | top => exact ⟨0, by rw [Ideal.rsqrt_top, clampInf_zero, EReal.coe_zero]⟩
  | coe r =>
    rcases lt_trichotomy r 0 with hr | hr | hr
    · exact ⟨0, by rw [clamp_rsqrt_coe_neg hr, EReal.coe_zero]⟩
    · subst hr; exact ⟨0, by rw [clamp_rsqrt_coe_zero, EReal.coe_zero]⟩
    · exact ⟨(Real.sqrt r)⁻¹, clamp_rsqrt_coe_pos hr⟩

end Algebra

open Algebra

/-- The normalizer by the power -1/2 is the normalizer by the inverse square root. -/
theorem nrmPow_eq_nrmRsqrt (s : EReal) : nrmPow s = nrmRsqrt s :=
  clamp_pow_eq_clamp_rsqrt (s + epsW)

/-- The normalizer is a real at every extended real. -/
theorem nrmRsqrt_real (s : EReal) : ∃ r : ℝ, nrmRsqrt s = (r : EReal) :=
  clamp_rsqrt_real (s + epsW)

/-! ### Four blocks of 2048 columns are the 8192 columns -/

namespace Algebra

/-- The pair (block, position in the block) and the column 2048·block + position determine each other. -/
def blockEquiv : Fin 4 × Fin 2048 ≃ Fin 8192 where
  toFun p := col p.1 p.2
  invFun j := (⟨j.val / 2048, by have := j.isLt; omega⟩, ⟨j.val % 2048, Nat.mod_lt _ (by norm_num)⟩)
  left_inv p := by
    rcases p with ⟨b, k⟩
    have hb := b.isLt
    have hk := k.isLt
    refine Prod.ext (Fin.ext ?_) (Fin.ext ?_)
    · show (2048 * b.val + k.val) / 2048 = b.val
      omega
    · show (2048 * b.val + k.val) % 2048 = k.val
      omega
  right_inv j := by
    refine Fin.ext ?_
    show 2048 * (j.val / 2048) + j.val % 2048 = j.val
    omega

end Algebra

/-- A sum over the 8192 columns is the sum over the four blocks of the sums over each block's 2048 columns. -/
theorem sum_blocks {α : Type*} [AddCommMonoid α] (f : Fin 8192 → α) :
    ∑ b : Fin 4, ∑ k : Fin 2048, f (col b k) = ∑ k : Fin 8192, f k :=
  (Fintype.sum_prod_type' (fun b k => f (col b k))).symm.trans (Equiv.sum_comp blockEquiv f)

namespace Algebra

/-- The same with the four blocks written out. -/
theorem sum_four_blocks {α : Type*} [AddCommMonoid α] (f : Fin 8192 → α) :
    (∑ k : Fin 2048, f (col 0 k)) + (∑ k : Fin 2048, f (col 1 k)) + (∑ k : Fin 2048, f (col 2 k))
      + (∑ k : Fin 2048, f (col 3 k)) = ∑ k : Fin 8192, f k := by
  rw [← sum_blocks f, Fin.sum_univ_four]

end Algebra

/-- Accumulating a row's four block sums from zero gives the row's whole sum from zero. -/
theorem degBlocks_eq_degWhole (M : SM.Idx → EReal) (p : Fin 8192) : degBlocks M p = degWhole M p := by
  unfold degBlocks degWhole rowPart
  rw [← sum_four_blocks (fun k => M (ix2 p k))]
  simp only [add_assoc]

/-! ### The two arrangements of the product -/

namespace Algebra

/-- Both arrangements use one normalizer. -/
theorem dWhole_eq_dBlocks (M : SM.Idx → EReal) (p : Fin 8192) : dWhole M p = dBlocks M p := by
  unfold dWhole dBlocks
  rw [nrmPow_eq_nrmRsqrt, degBlocks_eq_degWhole]

/-- In the reals: the four block shares accumulated from zero and scaled by the row's normalizer are the one
    sum over all columns of the entry scaled by both normalizers times the feature. -/
theorem real_blocks (m x d : Fin 8192 → ℝ) (dp : ℝ) :
    ((((0 + ∑ k : Fin 2048, m (col 0 k) * (x (col 0 k) * d (col 0 k)))
       + ∑ k : Fin 2048, m (col 1 k) * (x (col 1 k) * d (col 1 k)))
       + ∑ k : Fin 2048, m (col 2 k) * (x (col 2 k) * d (col 2 k)))
       + ∑ k : Fin 2048, m (col 3 k) * (x (col 3 k) * d (col 3 k))) * dp
    = ∑ k : Fin 8192, ((m k * dp) * d k) * x k := by
  rw [zero_add, sum_four_blocks (fun k => m k * (x k * d k)), Finset.sum_mul]
  exact Finset.sum_congr rfl (fun k _ => by ring)

/-- The two arrangements at row p and feature q. With real entries every normalizer is a real, so every term of
    both sides is a real and the identity is the one of the reals above; on the extended reals themselves the
    product does not distribute over a sum at the infinities. -/
theorem out_at (X : SX.Idx → EReal) (M : SM.Idx → EReal) (hX : ∀ i, ∃ r : ℝ, X i = (r : EReal))
    (hM : ∀ i, ∃ r : ℝ, M i = (r : EReal)) (p : Fin 8192) (q : Fin 1024) :
    ((((zeroW + prodPart X M p q 0) + prodPart X M p q 1) + prodPart X M p q 2) + prodPart X M p q 3) * dBlocks M p
      = ∑ k : Fin 8192, ((M (ix2 p k) * dWhole M p) * dWhole M k) * X (ix2 k q) := by
  choose x hx using hX
  choose m hm using hM
  have hD : ∀ p : Fin 8192, ∃ r : ℝ, dBlocks M p = (r : EReal) := fun p => nrmRsqrt_real _
  choose d hd using hD
  unfold prodPart
  simp only [dWhole_eq_dBlocks, hx, hm, hd, zeroW_eq]
  simp only [← EReal.coe_mul, Cert.Lib.ERealSums.coe_sum_real, ← EReal.coe_zero, ← EReal.coe_add]
  rw [EReal.coe_eq_coe_iff]
  exact real_blocks (fun k => m (ix2 p k)) (fun k => x (ix2 k q)) d (d p)

end Algebra

/-- The blockwise arrangement is the whole arrangement, at real entries. -/
theorem outBlocks_eq_outWhole (X : SX.Idx → EReal) (M : SM.Idx → EReal) (hX : ∀ i, ∃ r : ℝ, X i = (r : EReal))
    (hM : ∀ i, ∃ r : ℝ, M i = (r : EReal)) (i : SX.Idx) : outBlocks X M i = outWhole X M i :=
  out_at X M hX hM (i 0) (i 1)

end Cert.Gcn

end
-- ==== Proof.Body.lean ====
import proofs.«146034_j69793218560049_2_alg».proof.Proof.Gen.KernelIdeal.Frame
import Idealize.ShloMosaic.Lib.Pipeline.Value
import Idealize.ShloMosaic.Lib.Tactic

noncomputable section

open Idealize.ShloMosaic Idealize.ShloMosaic.TcCoe Idealize.ShloMosaic.Tactic Idealize.SL.Sem
open Idealize.ShloMosaic.Pipeline (Dat)

/-!
  What one run of each kernel body leaves in its output block, case by case.

  The row-sum body, at the first column block of a row block, stores zeros and then the zeros plus the block's row
  sums; at a later column block it adds the block's row sums to what the block before left; at the last column block it
  also replaces the accumulated sums by their normalizers. The product body does the same with the block's product
  in place of the row sums, and at the last column block scales the accumulated product by the row normalizers.
  Each is the last store's payload, its loads reading what the stores before left.
-/
namespace Cert.KernelIdeal.GcnBody
open Cert.KernelIdeal Cert.KernelIdeal.Gen

variable {F : FTy → Type} [FloatOps F]

theorem hz : (![0, 0] : Fin 2 → Nat) = fun _ => 0 := funext fun a => by fin_cases a <;> rfl

/-- First column block: zeros, plus the block's row sums. -/
theorem rowsum_A (c : Dev nD) (i : grid0.Coords) (a2 : Memref sig .tc .vmem S2048x2048 .f32) (h2 : a2.IsWhole)
    (a3 : Memref sig .tc .vmem S2048x1 .f32) (h3 : a3.IsWhole) (hc0 : cond0_0 i) (hc1 : ¬cond0_1 i)
    (x0 : Vec F S2048x2048 .f32) :
    out0_A_1 c i a2 h2 a3 h3 hc0 hc1 x0 = k0_pay2 (k0_pay1 (F := F)) x0 := by
  unfold out0_A_1
  rw [View.read_writes_eq_canon _ _ _ (cover0_A_1 c i a2 h2 a3 h3 hc0 hc1 x0)]
  unfold kernelRun0_A
  dsimp only
  sl_unfold_words
  rw [View.canon_cons_unit_zero (S := S2048x1) hz, View.readCov_unit_zero (S := S2048x1) _ hz]
  simp only [View.readAt_eq_ld, h2.read_unread, View.ld_unit_zero (S := S2048x2048) hz]

/-- A middle column block: what the block before left, plus the block's row sums. -/
theorem rowsum_B (c : Dev nD) (i : grid0.Coords) (a2 : Memref sig .tc .vmem S2048x2048 .f32) (h2 : a2.IsWhole)
    (a3 : Memref sig .tc .vmem S2048x1 .f32) (h3 : a3.IsWhole) (hc0 : ¬cond0_0 i) (hc1 : ¬cond0_1 i)
    (x0 : Vec F S2048x2048 .f32) (xo : Vec F S2048x1 .f32) :
    out0_B_1 c i a2 h2 a3 h3 hc0 hc1 x0 xo = k0_pay2 xo x0 := by
  unfold out0_B_1
  rw [View.read_writes_eq_canon _ _ _ (cover0_B_1 c i a2 h2 a3 h3 hc0 hc1 x0 xo)]
  unfold kernelRun0_B
  dsimp only
  rw [View.canon_unit_zero hz]
  simp only [View.readAt_eq_ld, h2.read_unread, h3.read_unread, View.ld_unit_zero (S := S2048x2048) hz, View.ld_unit_zero (S := S2048x1) hz]

/-- The last column block: the normalizers of the completed row sums. -/
theorem rowsum_C (c : Dev nD) (i : grid0.Coords) (a2 : Memref sig .tc .vmem S2048x2048 .f32) (h2 : a2.IsWhole)
    (a3 : Memref sig .tc .vmem S2048x1 .f32) (h3 : a3.IsWhole) (hc0 : ¬cond0_0 i) (hc1 : cond0_1 i)
    (x0 : Vec F S2048x2048 .f32) (xo : Vec F S2048x1 .f32) :
    out0_C_1 c i a2 h2 a3 h3 hc0 hc1 x0 xo = k0_pay3 (k0_pay2 xo x0) := by
  unfold out0_C_1
  rw [View.read_writes_eq_canon _ _ _ (cover0_C_1 c i a2 h2 a3 h3 hc0 hc1 x0 xo)]
  unfold kernelRun0_C
  dsimp only
  sl_unfold_words
  rw [View.canon_cons_unit_zero (S := S2048x1) hz, View.readCov_unit_zero (S := S2048x1) _ hz]
  simp only [View.readAt_eq_ld, h2.read_unread, h3.read_unread, View.ld_unit_zero (S := S2048x2048) hz, View.ld_unit_zero (S := S2048x1) hz]

/-- The 2048 rows of the scaled features that column block `i 1` of the adjacency matrix meets. -/
def featRows (i : grid1.Coords) (x1 : Vec F S8192x1024 .bf16) : Vec F S2048x1024 .bf16 :=
  View.ld x1 (Rect.unit (s := S8192x1024) (k1_off1 i) S2048x1024.size (k1_off1_inb i))

/-- First column block: zeros, plus the block's product. -/
theorem prod_A (c : Dev nD) (i : grid1.Coords) (a2 : Memref sig .tc .vmem S512x2048 .f32) (h2 : a2.IsWhole)
    (a3 : Memref sig .tc .vmem S8192x1024 .bf16) (h3 : a3.IsWhole) (a4 : Memref sig .tc .vmem S512x1 .f32) (h4 : a4.IsWhole)
    (a5 : Memref sig .tc .vmem S512x1024 .f32) (h5 : a5.IsWhole) (hc0 : cond1_0 i) (hc1 : ¬cond1_1 i)
    (x0 : Vec F S512x2048 .f32) (x1 : Vec F S8192x1024 .bf16) (x2 : Vec F S512x1 .f32) :
    out1_A_3 c i a2 h2 a3 h3 a4 h4 a5 h5 hc0 hc1 x0 x1 x2 = k1_pay2 x0 (featRows i x1) (k1_pay1 (F := F)) := by
  unfold out1_A_3
  rw [View.read_writes_eq_canon _ _ _ (cover1_A_3 c i a2 h2 a3 h3 a4 h4 a5 h5 hc0 hc1 x0 x1 x2)]
  unfold kernelRun1_A
  dsimp only
  sl_unfold_words
  rw [View.canon_cons_unit_zero (S := S512x1024) hz, View.readCov_unit_zero (S := S512x1024) _ hz]
  simp only [View.readAt_eq_ld, h2.read_unread, h3.read_unread, h4.read_unread, h5.read_unread, View.ld_unit_zero (S := S512x2048) hz, View.ld_unit_zero (S := S512x1024) hz, View.ld_unit_zero (S := S512x1) hz]
  rfl

/-- A middle column block: what the block before left, plus the block's product. -/
theorem prod_B (c : Dev nD) (i : grid1.Coords) (a2 : Memref sig .tc .vmem S512x2048 .f32) (h2 : a2.IsWhole)
    (a3 : Memref sig .tc .vmem S8192x1024 .bf16) (h3 : a3.IsWhole) (a4 : Memref sig .tc .vmem S512x1 .f32) (h4 : a4.IsWhole)
    (a5 : Memref sig .tc .vmem S512x1024 .f32) (h5 : a5.IsWhole) (hc0 : ¬cond1_0 i) (hc1 : ¬cond1_1 i)
    (x0 : Vec F S512x2048 .f32) (x1 : Vec F S8192x1024 .bf16) (x2 : Vec F S512x1 .f32) (xo : Vec F S512x1024 .f32) :
    out1_B_3 c i a2 h2 a3 h3 a4 h4 a5 h5 hc0 hc1 x0 x1 x2 xo = k1_pay2 x0 (featRows i x1) xo := by
  unfold out1_B_3
  rw [View.read_writes_eq_canon _ _ _ (cover1_B_3 c i a2 h2 a3 h3 a4 h4 a5 h5 hc0 hc1 x0 x1 x2 xo)]
  unfold kernelRun1_B
  dsimp only
  rw [View.canon_unit_zero hz]
  simp only [View.readAt_eq_ld, h2.read_unread, h3.read_unread, h4.read_unread, h5.read_unread, View.ld_unit_zero (S := S512x2048) hz, View.ld_unit_zero (S := S512x1024) hz, View.ld_unit_zero (S := S512x1) hz]
  rfl

/-- The last column block: the completed product scaled by the row normalizers. -/
theorem prod_C (c : Dev nD) (i : grid1.Coords) (a2 : Memref sig .tc .vmem S512x2048 .f32) (h2 : a2.IsWhole)
    (a3 : Memref sig .tc .vmem S8192x1024 .bf16) (h3 : a3.IsWhole) (a4 : Memref sig .tc .vmem S512x1 .f32) (h4 : a4.IsWhole)
    (a5 : Memref sig .tc .vmem S512x1024 .f32) (h5 : a5.IsWhole) (hc0 : ¬cond1_0 i) (hc1 : cond1_1 i)
    (x0 : Vec F S512x2048 .f32) (x1 : Vec F S8192x1024 .bf16) (x2 : Vec F S512x1 .f32) (xo : Vec F S512x1024 .f32) :
    out1_C_3 c i a2 h2 a3 h3 a4 h4 a5 h5 hc0 hc1 x0 x1 x2 xo = k1_pay3 (k1_pay2 x0 (featRows i x1) xo) x2 := by
  unfold out1_C_3
  rw [View.read_writes_eq_canon _ _ _ (cover1_C_3 c i a2 h2 a3 h3 a4 h4 a5 h5 hc0 hc1 x0 x1 x2 xo)]
  unfold kernelRun1_C
  dsimp only
  sl_unfold_words
  rw [View.canon_cons_unit_zero (S := S512x1024) hz, View.readCov_unit_zero (S := S512x1024) _ hz]
  simp only [View.readAt_eq_ld, h2.read_unread, h3.read_unread, h4.read_unread, h5.read_unread, View.ld_unit_zero (S := S512x2048) hz, View.ld_unit_zero (S := S512x1024) hz, View.ld_unit_zero (S := S512x1) hz]
  rfl

end Cert.KernelIdeal.GcnBody
end
-- ==== Proof.LibKeepdims.lean ====
/-
  Keepdims columns read at an index.

  A reduction along the rows of an `a × b` array that keeps the reduced axis leaves an `a × 1` column: the length-`a`
  vector of row statistics cast to that shape holds, at `(i, ·)`, the vector's entry `i` (both have row-major position
  `i`); and the column broadcast back along the rows holds, at `(p, c)`, the column's entry `p` (the unit axis is read at
  0, the other at the same coordinate). For any element type and any extents.
-/
import Idealize.ShloMosaic.Lib.Pipeline.Value
import Idealize.ShloMosaic.Lib.ValueIdx

noncomputable section

namespace Cert.Lib.Keepdims

open Idealize.ShloMosaic Idealize.ShloMosaic.ValueIdx

/-- A length-`a` vector cast to an `a × 1` column reads, at `(i, ·)`, the vector at `i`. -/
theorem col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along its rows reads, at `(p, c)`, the column at `p`. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.Payloads.lean ====
import proofs.«146034_j69793218560049_2_alg».proof.Proof.Gen.KernelIdeal.Skeleton
import proofs.«146034_j69793218560049_2_alg».proof.Proof.Forms
import proofs.«146034_j69793218560049_2_alg».proof.Proof.LibKeepdims
import proofs.«146034_j69793218560049_2_alg».proof.Proof.LibPlainDot
import Idealize.ShloMosaic.Lib.Pipeline.Value
import Idealize.ShloMosaic.Lib.ValueIdx
import Idealize.ShloMosaic.PureOps.Ideal.Laws

noncomputable section

/-!
  The two kernel bodies' arithmetic, read at an entry over the extended reals.

  The row-sum body's stored values: zeros; an accumulator column plus the row sums of a 2048 × 2048 block; the
  normalizer of a column entry. The product body's: zeros; an accumulator plus the product of a 512 × 2048 block
  with 2048 rows of the scaled features; an accumulator scaled row by row by a column of normalizers.
-/
namespace Cert.KernelIdeal.GcnPay
open Cert.KernelIdeal Cert.KernelIdeal.Gen Cert.Gcn
open Idealize.ShloMosaic Idealize.ShloMosaic.TcCoe Idealize.ShloMosaic.ValueIdx
open scoped BigOperators

/-- The zeros the first column block stores. -/
theorem rowZero_apply (y : S2048x1.Idx) : k0_pay1 (F := Ideal) y = zeroW := rfl

/-- The accumulator column plus the block's row sums, at row r. -/
theorem rowAdd_apply (acc : Vec Ideal S2048x1 .f32) (blk : Vec Ideal S2048x2048 .f32) (r : Fin 2048) (u : Fin 1) :
    k0_pay2 acc blk (ix2 r u) = acc (ix2 r u) + ∑ k : Fin 2048, blk (ix2 r k) := by
  unfold k0_pay2
  dsimp only
  rw [shapeCast_self]
  show acc (ix2 r u) + shapeCast S2048x1 _ shapeCasts_S2048_S2048x1 (ix2 r u) = _
  rw [Cert.Lib.Keepdims.col_apply]
  refine congrArg (acc (ix2 r u) + ·) ((Ideal.multiReduction_add_single (blk : FVec Ideal S2048x2048 .f32) 0x00000000#32 reduces_S2048x2048_S2048 (.inl rfl) rfl (ix1 r)).trans ?_)
  refine Finset.sum_congr rfl fun k _ => ?_
  exact congrArg blk (funext fun a => Fin.ext (by match a with | ⟨0, _⟩ => rfl | ⟨1, _⟩ => rfl))

/-- The normalizer of the completed row sum, at row r. -/
theorem rowNorm_apply (acc : Vec Ideal S2048x1 .f32) (y : S2048x1.Idx) :
    k0_pay3 acc y = nrmRsqrt (acc y) := by
  unfold k0_pay3
  rw [shapeCast_self]
  rfl

/-- The zeros the first column block stores. -/
theorem prodZero_apply (y : S512x1024.Idx) : k1_pay1 (F := Ideal) y = zeroW := rfl

/-- The accumulator plus the block's product with the feature rows, at (r, q). -/
theorem prodAdd_apply (blk : Vec Ideal S512x2048 .f32) (feat : Vec Ideal S2048x1024 .bf16) (acc : Vec Ideal S512x1024 .f32)
    (r : Fin 512) (q : Fin 1024) :
    k1_pay2 blk feat acc (ix2 r q) = acc (ix2 r q) + ∑ k : Fin 2048, blk (ix2 r k) * feat (ix2 k q) := by
  unfold k1_pay2
  rw [shapeCast_self, shapeCast_self]
  refine (congrArg (acc (ix2 r q) + ·) (Cert.Lib.PlainDot.matmul_zero_apply (a := 512) (c := 2048) (b := 1024)
    dot_S512x2048_S2048x1024_S512x1024_1_0_0_1_n_n_wf none (truncf .bf16 (blk : FVec Ideal S512x2048 .f32) bitsLt_bf16_f32)
    (feat : FVec Ideal S2048x1024 .bf16) r q)).trans ?_
  rfl

/-- The accumulator scaled by the column of normalizers, at (r, q). -/
theorem prodScale_apply (acc : Vec Ideal S512x1024 .f32) (nrm : Vec Ideal S512x1 .f32) (r : Fin 512) (q : Fin 1024) :
    k1_pay3 acc nrm (ix2 r q) = acc (ix2 r q) * nrm (ix2 r (0 : Fin 1)) := by
  unfold k1_pay3
  rw [shapeCast_self, shapeCast_self]
  show acc (ix2 r q) * broadcastTo S512x1024 nrm broadcasts_S512x1_S512x1024 (ix2 r q) = _
  rw [Cert.Lib.Keepdims.bcastCol_apply]

end Cert.KernelIdeal.GcnPay
end
-- ==== Proof.Deg.lean ====
import proofs.«146034_j69793218560049_2_alg».proof.Proof.Gen.KernelIdeal.Frame
import proofs.«146034_j69793218560049_2_alg».proof.Proof.Body
import proofs.«146034_j69793218560049_2_alg».proof.Proof.Payloads
import proofs.«146034_j69793218560049_2_alg».proof.Proof.Forms
import Idealize.ShloMosaic.Lib.Pipeline.Value
import Idealize.ShloMosaic.Lib.ValueIdx

set_option maxRecDepth 16384

noncomputable section

/-!
  What the row-sum kernel leaves in its result column, from whatever contents it is entered with.

  The grid is 4 row blocks by 4 column blocks, the column block innermost: point 4a + b works on rows
  2048a … 2048a + 2047 and columns 2048b … 2048b + 2047 of the adjacency matrix M. Within a row block the output
  block stays in its buffer: after column block 0 it holds 0 + (row sums over block 0), after blocks 1 and 2 the sums
  added on, and after block 3 the normalizer of the completed sum, which is then written back. So entry (p, 0) of the
  result column ends as the normalizer of row p's degree accumulated block by block.
-/
namespace Cert.KernelIdeal.GcnDeg
open Cert.KernelIdeal Cert.KernelIdeal.Gen Cert.Gcn Cert.KernelIdeal.GcnBody Cert.KernelIdeal.GcnPay
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The block indices of the two windows at point t = 4a + b: (a, b) for the matrix, (a, 0) for the column. -/
theorem idx0 : ∀ t : Fin cfg0.N, win0_0.index t (0 : Fin 2) = t.val / 4 ∧ win0_0.index t (1 : Fin 2) = t.val % 4
    ∧ win0_1.index t (0 : Fin 2) = t.val / 4 ∧ win0_1.index t (1 : Fin 2) = 0 :=
  (by decide +kernel : ∀ t : Fin grid0.N, _)

theorem lt16 (t : Fin cfg0.N) : t.val < 16 := lt_of_lt_of_eq t.isLt (show cfg0.N = 16 from N_0)

/-- The adjacency matrix as the kernel finds it. -/
abbrev adj (c : Dev nD) : SM.Idx → EReal := V c main_arg1

/-- The matrix block at point t, at (r, k), is M at row 2048·(t / 4) + r and column 2048·(t % 4) + k. -/
theorem blk_apply (c : Dev nD) (t : Fin cfg0.N) (r k : Fin 2048) (p : Fin 8192) (hp : p.val = 2048 * (t.val / 4) + r.val)
    (b : Fin 4) (hb : b.val = t.val % 4) :
    (iblk0 V c 0 t : Vec Ideal S2048x2048 .f32) (ix2 r k) = adj V c (ix2 p (col b k)) := by
  unfold iblk0
  rw [View.read_apply]
  show V c main_arg1 _ = V c main_arg1 _
  congr 1
  funext a
  apply Fin.ext
  obtain ⟨e0, e1, -, -⟩ := idx0 t
  match a with
  | ⟨0, _⟩ => show win0_0.index t (0 : Fin 2) * 2048 + 1 * r.val = p.val; rw [e0, hp]; omega
  | ⟨1, _⟩ => show win0_0.index t (1 : Fin 2) * 2048 + 1 * k.val = 2048 * b.val + k.val; rw [e1, hb]; omega

/-- The matrix block at point t as an array of extended reals. -/
abbrev mblk (c : Dev nD) (t : Fin cfg0.N) : S2048x2048.Idx → EReal := iblk0 V c 0 t

/-- So the block's row sum at r is row p's sum over column block b. -/
theorem blk_sum (c : Dev nD) (t : Fin cfg0.N) (r : Fin 2048) (p : Fin 8192) (hp : p.val = 2048 * (t.val / 4) + r.val)
    (b : Fin 4) (hb : b.val = t.val % 4) :
    ∑ k : Fin 2048, mblk V c t (ix2 r k) = rowPart (adj V c) p b :=
  Finset.sum_congr rfl fun k _ => blk_apply V c t r k p hp b hb

/-- After column block 0. -/
theorem acc0 (c : Dev nD) (t : Fin cfg0.N) (h : t.val % 4 = 0) (r : Fin 2048) (u : Fin 1) (p : Fin 8192)
    (hp : p.val = 2048 * (t.val / 4) + r.val) :
    outsAt0 V c t.val t.isLt (ix2 r u) = zeroW + rowPart (adj V c) p 0 := by
  rw [outsAt0_A V c t h (by omega)]
  refine (congrFun (rowsum_A c (grid0.coords t) (ms0_0 t) (hs0_0 t) (ms0_1 t) (hs0_1 t) _ _ (iblk0 V c 0 t)) (ix2 r u)).trans ?_
  refine (rowAdd_apply (k0_pay1 (F := Ideal)) (iblk0 V c 0 t) r u).trans ?_
  exact congrArg (zeroW + ·) (blk_sum V c t r p hp 0 (by rw [h]; rfl))

/-- After a middle column block: the sum over it added to what the block before left. -/
theorem accStep (c : Dev nD) (t : Fin cfg0.N) (h0 : ¬t.val % 4 = 0) (h1 : ¬t.val % 4 = 3) (r : Fin 2048) (u : Fin 1) (p : Fin 8192)
    (hp : p.val = 2048 * (t.val / 4) + r.val) (b : Fin 4) (hb : b.val = t.val % 4) :
    outsAt0 V c t.val t.isLt (ix2 r u)
      = outsAt0 V c (t.val - 1) (Nat.lt_of_le_of_lt (Nat.sub_le _ _) t.isLt) (ix2 r u) + rowPart (adj V c) p b := by
  rw [outsAt0_B V c t h0 h1]
  refine (congrFun (rowsum_B c (grid0.coords t) (ms0_0 t) (hs0_0 t) (ms0_1 t) (hs0_1 t) _ _ (iblk0 V c 0 t)
    (outsAt0 V c (t.val - 1) (Nat.lt_of_le_of_lt (Nat.sub_le _ _) t.isLt))) (ix2 r u)).trans ?_
  refine (rowAdd_apply (outsAt0 V c (t.val - 1) (Nat.lt_of_le_of_lt (Nat.sub_le _ _) t.isLt)) (iblk0 V c 0 t) r u).trans ?_
  exact congrArg (_ + ·) (blk_sum V c t r p hp b hb)

/-- After the last column block: the normalizer of what the block before left plus the sum over it. -/
theorem accLast (c : Dev nD) (t : Fin cfg0.N) (h3 : t.val % 4 = 3) (r : Fin 2048) (u : Fin 1) (p : Fin 8192)
    (hp : p.val = 2048 * (t.val / 4) + r.val) :
    outsAt0 V c t.val t.isLt (ix2 r u)
      = nrmRsqrt (outsAt0 V c (t.val - 1) (Nat.lt_of_le_of_lt (Nat.sub_le _ _) t.isLt) (ix2 r u) + rowPart (adj V c) p 3) := by
  rw [outsAt0_C V c t (by omega) h3]
  refine (congrFun (rowsum_C c (grid0.coords t) (ms0_0 t) (hs0_0 t) (ms0_1 t) (hs0_1 t) _ _ (iblk0 V c 0 t)
    (outsAt0 V c (t.val - 1) (Nat.lt_of_le_of_lt (Nat.sub_le _ _) t.isLt))) (ix2 r u)).trans ?_
  refine (rowNorm_apply _ (ix2 r u)).trans ?_
  refine congrArg nrmRsqrt ?_
  refine (rowAdd_apply (outsAt0 V c (t.val - 1) (Nat.lt_of_le_of_lt (Nat.sub_le _ _) t.isLt)) (iblk0 V c 0 t) r u).trans ?_
  exact congrArg (_ + ·) (blk_sum V c t r p hp 3 (by rw [h3]; rfl))

/-- At a point that writes back (column block 3), the output block holds the rows' normalizers. -/
theorem acc_flush (c : Dev nD) (t : Fin cfg0.N) (h3 : t.val % 4 = 3) (r : Fin 2048) (u : Fin 1) (p : Fin 8192)
    (hp : p.val = 2048 * (t.val / 4) + r.val) :
    outsAt0 V c t.val t.isLt (ix2 r u) = dBlocks (adj V c) p := by
  have hN := lt16 t
  have e3 := accLast V c t h3 r u p hp
  have e2 := accStep V c ⟨t.val - 1, Nat.lt_of_le_of_lt (Nat.sub_le _ _) t.isLt⟩ (by show ¬(t.val - 1) % 4 = 0; omega)
    (by show ¬(t.val - 1) % 4 = 3; omega) r u p (by show p.val = 2048 * ((t.val - 1) / 4) + r.val; omega) 2 (by show 2 = (t.val - 1) % 4; omega)
  have e1 := accStep V c ⟨t.val - 1 - 1, Nat.lt_of_le_of_lt (Nat.sub_le _ _) (Nat.lt_of_le_of_lt (Nat.sub_le _ _) t.isLt)⟩
    (by show ¬(t.val - 1 - 1) % 4 = 0; omega) (by show ¬(t.val - 1 - 1) % 4 = 3; omega) r u p
    (by show p.val = 2048 * ((t.val - 1 - 1) / 4) + r.val; omega) 1 (by show 1 = (t.val - 1 - 1) % 4; omega)
  have e0 := acc0 V c ⟨t.val - 1 - 1 - 1, Nat.lt_of_le_of_lt (Nat.sub_le _ _) (Nat.lt_of_le_of_lt (Nat.sub_le _ _) (Nat.lt_of_le_of_lt (Nat.sub_le _ _) t.isLt))⟩
    (by show (t.val - 1 - 1 - 1) % 4 = 0; omega) r u p (by show p.val = 2048 * ((t.val - 1 - 1 - 1) / 4) + r.val; omega)
  rw [e3]
  show nrmRsqrt (outsAt0 V c (t.val - 1) _ (ix2 r u) + _) = _
  rw [e2]
  show nrmRsqrt (outsAt0 V c (t.val - 1 - 1) _ (ix2 r u) + _ + _) = _
  rw [e1]
  show nrmRsqrt (outsAt0 V c (t.val - 1 - 1 - 1) _ (ix2 r u) + _ + _ + _) = _
  rw [e0]
  rfl

/-- The result column the kernel leaves: row p's normalizer. -/
def degCol (c : Dev nD) : S8192x1.Idx → EReal := fun i => dBlocks (adj V c) ⟨(i 0).val, idx2_lt0 i⟩

/-- What a writing point writes back is its block of the normalizer column. -/
theorem flushed_deg (c : Dev nD) (t : Fin cfg0.N) (hf : (cfg0.win 1).flush t = true) :
    (dat0 V c).flushed 1 t = ((cfg0.win 1).blk t).view.read (Elt Ideal) (degCol V c) := by
  have h3 : t.val % 4 = 3 := (flush0_1 t).mp hf
  have hN := lt16 t
  obtain ⟨-, -, e2, -⟩ := idx0 t
  show (cfg0.win 1).cut (grid0.coords t) ((dat0 V c).after 1 t) = _
  rw [after0_1]
  funext y
  obtain ⟨r, u, rfl⟩ : ∃ (r : Fin 2048) (u : Fin 1), y = ix2 r u := ⟨y 0, y 1, eq_ix2 y⟩
  rw [View.read_apply]
  show outsAt0 V c t.val t.isLt (ix2 r u) = dBlocks (adj V c) ⟨(((cfg0.win 1).blk t).view.emb (ix2 r u) 0).val, _⟩
  exact acc_flush V c t h3 r u _ (by show win0_1.index t (0 : Fin 2) * 2048 + 1 * r.val = _; rw [e2]; omega)

/-- An index of the column is in point t's block iff each coordinate is in the block's range. -/
theorem mem_blk (t : Fin cfg0.N) (i : S8192x1.Idx) :
    i ∈ ((cfg0.win 1).blk t).view.set ↔ ∀ a : Fin 2, win0_1.index t a * S2048x1.size a ≤ (i a).val ∧ (i a).val < win0_1.index t a * S2048x1.size a + S2048x1.size a := by
  show i ∈ ((View.whole main_v0).slice (win0_1.rect t)).set ↔ _
  rw [View.set_slice_whole, Rect.mem_set_unit]
  exact Iff.rfl

/-- Row p lies in the block written back at the last column block of its row block. -/
theorem cover_deg (i : S8192x1.Idx) : ∃ t : Fin cfg0.N, (cfg0.win 1).flush t = true ∧ i ∈ ((cfg0.win 1).blk t).view.set := by
  have hi0 : (i 0).val < 8192 := idx2_lt0 i
  have hi1 : (i 1).val < 1 := idx2_lt1 i
  have hN : cfg0.N = 16 := N_0
  refine ⟨⟨4 * ((i 0).val / 2048) + 3, by rw [hN]; omega⟩, (flush0_1 _).mpr (by show (4 * ((i 0).val / 2048) + 3) % 4 = 3; omega), ?_⟩
  rw [mem_blk]
  obtain ⟨-, -, e2, e3⟩ := idx0 ⟨4 * ((i 0).val / 2048) + 3, by rw [hN]; omega⟩
  intro a
  match a with
  | ⟨0, _⟩ =>
    show win0_1.index _ (0 : Fin 2) * 2048 ≤ (i 0).val ∧ (i 0).val < win0_1.index _ (0 : Fin 2) * 2048 + 2048
    rw [e2]; show (4 * ((i 0).val / 2048) + 3) / 4 * 2048 ≤ _ ∧ _ < (4 * ((i 0).val / 2048) + 3) / 4 * 2048 + 2048; omega
  | ⟨1, _⟩ =>
    show win0_1.index _ (1 : Fin 2) * 1 ≤ (i 1).val ∧ (i 1).val < win0_1.index _ (1 : Fin 2) * 1 + 1
    rw [e3]; omega

/-- The result column after the kernel: every row's normalizer. -/
theorem final_deg (c : Dev nD) : (dat0 V c).arrAt 1 cfg0.N = degCol V c :=
  (dat0 V c).arrAt_eq_of_cover 1 (degCol V c) (flushed_deg V c) cover_deg

end Cert.KernelIdeal.GcnDeg
end
-- ==== Proof.Prod.lean ====
import proofs.«146034_j69793218560049_2_alg».proof.Proof.Gen.KernelIdeal.Frame
import proofs.«146034_j69793218560049_2_alg».proof.Proof.Body
import proofs.«146034_j69793218560049_2_alg».proof.Proof.Payloads
import proofs.«146034_j69793218560049_2_alg».proof.Proof.Forms
import Idealize.ShloMosaic.Lib.Pipeline.Value
import Idealize.ShloMosaic.Lib.ValueIdx

set_option maxRecDepth 16384

noncomputable section

/-!
  What the product kernel leaves in its result, from whatever contents it is entered with.

  The grid is 16 row blocks by 4 column blocks, the column block innermost: point 4a + b works on rows
  512a … 512a + 511 and columns 2048b … 2048b + 2047 of the adjacency matrix M, on rows 2048b … 2048b + 2047 of the
  scaled features Y (held whole), and on rows 512a … 512a + 511 of the normalizer column D. Within a row block the
  output block stays in its buffer: after column block 0 it holds 0 + (the block's product), after blocks 1 and 2 the
  products added on, and after block 3 the completed product scaled row by row by D, which is then written back.
-/
namespace Cert.KernelIdeal.GcnProd
open Cert.KernelIdeal Cert.KernelIdeal.Gen Cert.Gcn Cert.KernelIdeal.GcnBody Cert.KernelIdeal.GcnPay
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The block indices of the four windows at point t = 4a + b, and the first feature row the body loads. -/
theorem idx1 : ∀ t : Fin cfg1.N, win1_0.index t (0 : Fin 2) = t.val / 4 ∧ win1_0.index t (1 : Fin 2) = t.val % 4
    ∧ win1_1.index t (0 : Fin 2) = 0 ∧ win1_1.index t (1 : Fin 2) = 0
    ∧ win1_2.index t (0 : Fin 2) = t.val / 4 ∧ win1_2.index t (1 : Fin 2) = 0
    ∧ win1_3.index t (0 : Fin 2) = t.val / 4 ∧ win1_3.index t (1 : Fin 2) = 0
    ∧ k1_off1 (grid1.coords t) (0 : Fin 2) = 2048 * (t.val % 4) ∧ k1_off1 (grid1.coords t) (1 : Fin 2) = 0 :=
  (by decide +kernel : ∀ t : Fin grid1.N, _)

theorem lt64 (t : Fin cfg1.N) : t.val < 64 := lt_of_lt_of_eq t.isLt (show cfg1.N = 64 from N_1)

/-- The adjacency matrix, the scaled features and the normalizer column as the kernel finds them. -/
abbrev adj (c : Dev nD) : SM.Idx → EReal := V c main_arg1
abbrev feat (c : Dev nD) : SX.Idx → EReal := V c main_v3
abbrev ncol (c : Dev nD) : S8192x1.Idx → EReal := V c main_v0

/-- The three input blocks at point t as arrays of extended reals. -/
abbrev mblk (c : Dev nD) (t : Fin cfg1.N) : S512x2048.Idx → EReal := iblk1 V c 0 t
abbrev frows (c : Dev nD) (t : Fin cfg1.N) : S2048x1024.Idx → EReal := featRows (grid1.coords t) (iblk1 V c 1 t)
abbrev nblk (c : Dev nD) (t : Fin cfg1.N) : S512x1.Idx → EReal := iblk1 V c 2 t

/-- The matrix block at (r, k) is M at row 512·(t / 4) + r and column 2048·(t % 4) + k. -/
theorem mblk_apply (c : Dev nD) (t : Fin cfg1.N) (r : Fin 512) (k : Fin 2048) (p : Fin 8192) (hp : p.val = 512 * (t.val / 4) + r.val)
    (b : Fin 4) (hb : b.val = t.val % 4) :
    mblk V c t (ix2 r k) = adj V c (ix2 p (col b k)) := by
  unfold mblk iblk1
  rw [View.read_apply]
  show V c main_arg1 _ = V c main_arg1 _
  congr 1
  funext a
  apply Fin.ext
  obtain ⟨e0, e1, -⟩ := idx1 t
  match a with
  | ⟨0, _⟩ => show win1_0.index t (0 : Fin 2) * 512 + 1 * r.val = p.val; rw [e0, hp]; omega
  | ⟨1, _⟩ => show win1_0.index t (1 : Fin 2) * 2048 + 1 * k.val = 2048 * b.val + k.val; rw [e1, hb]; omega

/-- The normalizer block at (r, ·) is D at row 512·(t / 4) + r. -/
theorem nblk_apply (c : Dev nD) (t : Fin cfg1.N) (r : Fin 512) (u : Fin 1) (p : Fin 8192) (hp : p.val = 512 * (t.val / 4) + r.val) :
    nblk V c t (ix2 r u) = ncol V c (ix2 p (0 : Fin 1)) := by
  unfold nblk iblk1
  rw [View.read_apply]
  show V c main_v0 _ = V c main_v0 _
  congr 1
  funext a
  apply Fin.ext
  obtain ⟨-, -, -, -, e4, e5, -⟩ := idx1 t
  have hu : u.val = 0 := by omega
  match a with
  | ⟨0, _⟩ => show win1_2.index t (0 : Fin 2) * 512 + 1 * r.val = p.val; rw [e4, hp]; omega
  | ⟨1, _⟩ => show win1_2.index t (1 : Fin 2) * 1 + 1 * u.val = 0; rw [e5, hu]

/-- The feature rows the body loads at (k, q) are Y at row 2048·(t % 4) + k. -/
theorem frows_apply (c : Dev nD) (t : Fin cfg1.N) (k : Fin 2048) (q : Fin 1024) (b : Fin 4) (hb : b.val = t.val % 4) :
    frows V c t (ix2 k q) = feat V c (ix2 (col b k) q) := by
  unfold frows featRows iblk1
  show ((cfg1.win 1).blk t).view.read (Elt Ideal) (V c main_v3) ((Rect.unit (s := S8192x1024) (k1_off1 (grid1.coords t)) S2048x1024.size (k1_off1_inb (grid1.coords t))).emb (ix2 k q)) = _
  rw [View.read_apply]
  show V c main_v3 _ = V c main_v3 _
  congr 1
  funext a
  apply Fin.ext
  obtain ⟨-, -, e2, e3, -, -, -, -, e8, e9⟩ := idx1 t
  match a with
  | ⟨0, _⟩ =>
    show win1_1.index t (0 : Fin 2) * 8192 + 1 * (k1_off1 (grid1.coords t) (0 : Fin 2) + 1 * k.val) = 2048 * b.val + k.val
    rw [e2, e8, hb]; omega
  | ⟨1, _⟩ =>
    show win1_1.index t (1 : Fin 2) * 1024 + 1 * (k1_off1 (grid1.coords t) (1 : Fin 2) + 1 * q.val) = q.val
    rw [e3, e9]; omega

/-- Row p's product with the scaled features over column block b, at column q. -/
def part (c : Dev nD) (p : Fin 8192) (q : Fin 1024) (b : Fin 4) : EReal :=
  ∑ k : Fin 2048, adj V c (ix2 p (col b k)) * feat V c (ix2 (col b k) q)

/-- The block's product at (r, q) is that share. -/
theorem blk_prod (c : Dev nD) (t : Fin cfg1.N) (r : Fin 512) (q : Fin 1024) (p : Fin 8192) (hp : p.val = 512 * (t.val / 4) + r.val)
    (b : Fin 4) (hb : b.val = t.val % 4) :
    ∑ k : Fin 2048, mblk V c t (ix2 r k) * frows V c t (ix2 k q) = part V c p q b :=
  Finset.sum_congr rfl fun k _ => by rw [mblk_apply V c t r k p hp b hb, frows_apply V c t k q b hb]

/-- After column block 0. -/
theorem acc0 (c : Dev nD) (t : Fin cfg1.N) (h : t.val % 4 = 0) (r : Fin 512) (q : Fin 1024) (p : Fin 8192)
    (hp : p.val = 512 * (t.val / 4) + r.val) :
    outsAt1 V c t.val t.isLt (ix2 r q) = zeroW + part V c p q 0 := by
  rw [outsAt1_A V c t h (by omega)]
  refine (congrFun (prod_A c (grid1.coords t) (ms1_0 t) (hs1_0 t) (ms1_1 t) (hs1_1 t) (ms1_2 t) (hs1_2 t) (ms1_3 t) (hs1_3 t) _ _
    (iblk1 V c 0 t) (iblk1 V c 1 t) (iblk1 V c 2 t)) (ix2 r q)).trans ?_
  refine (prodAdd_apply (iblk1 V c 0 t) (featRows (grid1.coords t) (iblk1 V c 1 t)) (k1_pay1 (F := Ideal)) r q).trans ?_
  exact congrArg (zeroW + ·) (blk_prod V c t r q p hp 0 (by rw [h]; rfl))

/-- After a middle column block: its product added to what the block before left. -/
theorem accStep (c : Dev nD) (t : Fin cfg1.N) (h0 : ¬t.val % 4 = 0) (h1 : ¬t.val % 4 = 3) (r : Fin 512) (q : Fin 1024) (p : Fin 8192)
    (hp : p.val = 512 * (t.val / 4) + r.val) (b : Fin 4) (hb : b.val = t.val % 4) :
    outsAt1 V c t.val t.isLt (ix2 r q)
      = outsAt1 V c (t.val - 1) (Nat.lt_of_le_of_lt (Nat.sub_le _ _) t.isLt) (ix2 r q) + part V c p q b := by
  rw [outsAt1_B V c t h0 h1]
  refine (congrFun (prod_B c (grid1.coords t) (ms1_0 t) (hs1_0 t) (ms1_1 t) (hs1_1 t) (ms1_2 t) (hs1_2 t) (ms1_3 t) (hs1_3 t) _ _
    (iblk1 V c 0 t) (iblk1 V c 1 t) (iblk1 V c 2 t) (outsAt1 V c (t.val - 1) (Nat.lt_of_le_of_lt (Nat.sub_le _ _) t.isLt))) (ix2 r q)).trans ?_
  refine (prodAdd_apply (iblk1 V c 0 t) (featRows (grid1.coords t) (iblk1 V c 1 t))
    (outsAt1 V c (t.val - 1) (Nat.lt_of_le_of_lt (Nat.sub_le _ _) t.isLt)) r q).trans ?_
  exact congrArg (_ + ·) (blk_prod V c t r q p hp b hb)

/-- After the last column block: what the block before left plus its product, scaled by row p's normalizer. -/
theorem accLast (c : Dev nD) (t : Fin cfg1.N) (h3 : t.val % 4 = 3) (r : Fin 512) (q : Fin 1024) (p : Fin 8192)
    (hp : p.val = 512 * (t.val / 4) + r.val) :
    outsAt1 V c t.val t.isLt (ix2 r q)
      = (outsAt1 V c (t.val - 1) (Nat.lt_of_le_of_lt (Nat.sub_le _ _) t.isLt) (ix2 r q) + part V c p q 3) * ncol V c (ix2 p (0 : Fin 1)) := by
  rw [outsAt1_C V c t (by omega) h3]
  refine (congrFun (prod_C c (grid1.coords t) (ms1_0 t) (hs1_0 t) (ms1_1 t) (hs1_1 t) (ms1_2 t) (hs1_2 t) (ms1_3 t) (hs1_3 t) _ _
    (iblk1 V c 0 t) (iblk1 V c 1 t) (iblk1 V c 2 t) (outsAt1 V c (t.val - 1) (Nat.lt_of_le_of_lt (Nat.sub_le _ _) t.isLt))) (ix2 r q)).trans ?_
  refine (prodScale_apply _ (iblk1 V c 2 t) r q).trans ?_
  refine congrArg₂ (· * ·) ?_ (nblk_apply V c t r 0 p hp)
  refine (prodAdd_apply (iblk1 V c 0 t) (featRows (grid1.coords t) (iblk1 V c 1 t))
    (outsAt1 V c (t.val - 1) (Nat.lt_of_le_of_lt (Nat.sub_le _ _) t.isLt)) r q).trans ?_
  exact congrArg (_ + ·) (blk_prod V c t r q p hp 3 (by rw [h3]; rfl))

/-- Entry (p, q) of the kernel's result: the four shares accumulated from zero, scaled by row p's normalizer. -/
def prodOut (c : Dev nD) (p : Fin 8192) (q : Fin 1024) : EReal :=
  ((((zeroW + part V c p q 0) + part V c p q 1) + part V c p q 2) + part V c p q 3) * ncol V c (ix2 p (0 : Fin 1))

/-- At a point that writes back (column block 3), the output block holds those entries. -/
theorem acc_flush (c : Dev nD) (t : Fin cfg1.N) (h3 : t.val % 4 = 3) (r : Fin 512) (q : Fin 1024) (p : Fin 8192)
    (hp : p.val = 512 * (t.val / 4) + r.val) :
    outsAt1 V c t.val t.isLt (ix2 r q) = prodOut V c p q := by
  have hN := lt64 t
  have e3 := accLast V c t h3 r q p hp
  have e2 := accStep V c ⟨t.val - 1, Nat.lt_of_le_of_lt (Nat.sub_le _ _) t.isLt⟩ (by show ¬(t.val - 1) % 4 = 0; omega)
    (by show ¬(t.val - 1) % 4 = 3; omega) r q p (by show p.val = 512 * ((t.val - 1) / 4) + r.val; omega) 2 (by show 2 = (t.val - 1) % 4; omega)
  have e1 := accStep V c ⟨t.val - 1 - 1, Nat.lt_of_le_of_lt (Nat.sub_le _ _) (Nat.lt_of_le_of_lt (Nat.sub_le _ _) t.isLt)⟩
    (by show ¬(t.val - 1 - 1) % 4 = 0; omega) (by show ¬(t.val - 1 - 1) % 4 = 3; omega) r q p
    (by show p.val = 512 * ((t.val - 1 - 1) / 4) + r.val; omega) 1 (by show 1 = (t.val - 1 - 1) % 4; omega)
  have e0 := acc0 V c ⟨t.val - 1 - 1 - 1, Nat.lt_of_le_of_lt (Nat.sub_le _ _) (Nat.lt_of_le_of_lt (Nat.sub_le _ _) (Nat.lt_of_le_of_lt (Nat.sub_le _ _) t.isLt))⟩
    (by show (t.val - 1 - 1 - 1) % 4 = 0; omega) r q p (by show p.val = 512 * ((t.val - 1 - 1 - 1) / 4) + r.val; omega)
  rw [e3]
  show (outsAt1 V c (t.val - 1) _ (ix2 r q) + _) * _ = _
  rw [e2]
  show (outsAt1 V c (t.val - 1 - 1) _ (ix2 r q) + _ + _) * _ = _
  rw [e1]
  show (outsAt1 V c (t.val - 1 - 1 - 1) _ (ix2 r q) + _ + _ + _) * _ = _
  rw [e0]
  rfl

/-- The result array the kernel leaves. -/
def prodArr (c : Dev nD) : S8192x1024.Idx → EReal := fun i => prodOut V c ⟨(i 0).val, idx2_lt0 i⟩ ⟨(i 1).val, idx2_lt1 i⟩

/-- What a writing point writes back is its block of that array. -/
theorem flushed_prod (c : Dev nD) (t : Fin cfg1.N) (hf : (cfg1.win 3).flush t = true) :
    (dat1 V c).flushed 3 t = ((cfg1.win 3).blk t).view.read (Elt Ideal) (prodArr V c) := by
  have h3 : t.val % 4 = 3 := (flush1_3 t).mp hf
  have hN := lt64 t
  obtain ⟨-, -, -, -, -, -, e6, e7, -⟩ := idx1 t
  show (cfg1.win 3).cut (grid1.coords t) ((dat1 V c).after 3 t) = _
  rw [after1_3]
  funext y
  obtain ⟨r, q, rfl⟩ : ∃ (r : Fin 512) (q : Fin 1024), y = ix2 r q := ⟨y 0, y 1, eq_ix2 y⟩
  rw [View.read_apply]
  show outsAt1 V c t.val t.isLt (ix2 r q)
    = prodOut V c ⟨(((cfg1.win 3).blk t).view.emb (ix2 r q) 0).val, _⟩ ⟨(((cfg1.win 3).blk t).view.emb (ix2 r q) 1).val, _⟩
  have hq : (⟨(((cfg1.win 3).blk t).view.emb (ix2 r q) 1).val, idx2_lt1 _⟩ : Fin 1024) = q :=
    Fin.ext (by show win1_3.index t (1 : Fin 2) * 1024 + 1 * q.val = q.val; rw [e7]; omega)
  rw [hq]
  exact acc_flush V c t h3 r q _ (by show win1_3.index t (0 : Fin 2) * 512 + 1 * r.val = _; rw [e6]; omega)

/-- An index of the result is in point t's block iff each coordinate is in the block's range. -/
theorem mem_blk (t : Fin cfg1.N) (i : S8192x1024.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v4).slice (win1_3.rect t)).set ↔ _
  rw [View.set_slice_whole, Rect.mem_set_unit]
  exact Iff.rfl

/-- Row p lies in the block written back at the last column block of its row block. -/
theorem cover_prod (i : S8192x1024.Idx) : ∃ t : Fin cfg1.N, (cfg1.win 3).flush t = true ∧ i ∈ ((cfg1.win 3).blk t).view.set := by
  have hi0 : (i 0).val < 8192 := idx2_lt0 i
  have hi1 : (i 1).val < 1024 := idx2_lt1 i
  have hN : cfg1.N = 64 := N_1
  refine ⟨⟨4 * ((i 0).val / 512) + 3, by rw [hN]; omega⟩, (flush1_3 _).mpr (by show (4 * ((i 0).val / 512) + 3) % 4 = 3; omega), ?_⟩
  rw [mem_blk]
  obtain ⟨-, -, -, -, -, -, e6, e7, -⟩ := idx1 ⟨4 * ((i 0).val / 512) + 3, by rw [hN]; omega⟩
  intro a
  match a with
  | ⟨0, _⟩ =>
    show win1_3.index _ (0 : Fin 2) * 512 ≤ (i 0).val ∧ (i 0).val < win1_3.index _ (0 : Fin 2) * 512 + 512
    rw [e6]; show (4 * ((i 0).val / 512) + 3) / 4 * 512 ≤ _ ∧ _ < (4 * ((i 0).val / 512) + 3) / 4 * 512 + 512; omega
  | ⟨1, _⟩ =>
    show win1_3.index _ (1 : Fin 2) * 1024 ≤ (i 1).val ∧ (i 1).val < win1_3.index _ (1 : Fin 2) * 1024 + 1024
    rw [e7]; omega

/-- The result after the kernel. -/
theorem final_prod (c : Dev nD) : (dat1 V c).arrAt 3 cfg1.N = prodArr V c :=
  (dat1 V c).arrAt_eq_of_cover 3 (prodArr V c) (flushed_prod V c) cover_prod

end Cert.KernelIdeal.GcnProd
end
-- ==== Proof.Host.lean ====
import proofs.«146034_j69793218560049_2_alg».proof.Proof.Gen.KernelIdeal.Frame
import Idealize.ShloMosaic.Lib.StableHlo.Run
import Idealize.ShloMosaic.Lib.Tactic

set_option maxRecDepth 16384

noncomputable section

/-!
  The host operations around the two kernels, read back.

  Between the kernels the host scales the features row by row by the first kernel's result column (broadcast along
  the rows) and changes the format; the adjacency matrix and the result column reach the second kernel as the first
  left them. After the second kernel the host normalizes the index vector (a negative index has 8192 added) and
  scatters the second kernel's result rows into the feature matrix.
-/
namespace Cert.KernelIdeal.GcnHost
open Cert.KernelIdeal Cert.KernelIdeal.Gen
open Idealize.ShloMosaic Idealize.ShloMosaic.TcCoe Idealize.ShloMosaic.Tactic Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-- After the first kernel the feature matrix is as launched, -/
theorem W1_arg0 (c : Dev nD) : W1 m ρ c (Proc.devRef .tc main_arg0) = m ((c : Thread nD τ).loc main_arg0) :=
  (W1_of_ne m ρ c main_arg0 (by decide)).trans rfl

/-- the adjacency matrix is as launched (the kernel only reads it), -/
theorem W1_arg1 (c : Dev nD) : W1 m ρ c (Proc.devRef .tc main_arg1) = m ((c : Thread nD τ).loc main_arg1) :=
  ((W1_arr m ρ c 0).trans (((dat0 (V0 m ρ) c).arrAt_in 0 rfl _).trans (A_eq0 (V0 m ρ) c 0))).trans rfl

/-- the index vector is as launched, -/
theorem W1_arg2 (c : Dev nD) : W1 m ρ c (Proc.devRef .tc main_arg2) = m ((c : Thread nD τ).loc main_arg2) :=
  (W1_of_ne m ρ c main_arg2 (by decide)).trans rfl

/-- and the result column holds what the kernel's write-backs leave. -/
theorem W1_v0 (c : Dev nD) : W1 m ρ c (Proc.devRef .tc main_v0) = (dat0 (V0 m ρ) c).arrAt 1 cfg0.N :=
  W1_arr m ρ c 1

/-- The scaled features the second kernel is entered with. -/
theorem V2_v3 (c : Dev nD) : V2 m ρ c main_v3
    = (truncf .bf16 (mulf (W1 m ρ c (Proc.devRef .tc main_arg0))
        (broadcastInDim S8192x1024 ![0, 1] bcast_S8192x1_S8192x1024_0_1 (W1 m ρ c (Proc.devRef .tc main_v0)))) bitsLt_bf16_f32
      : (⟨S8192x1024, .bf16⟩ : BufTy).Contents (Elt F)) := by
  show StableHlo.after hostOps1 (W1 m ρ c) (Proc.devRef .tc main_v3) = _
  after_results

/-- The result column, the adjacency matrix, the features and the indices pass the host stretch unchanged. -/
theorem V2_v0 (c : Dev nD) : V2 m ρ c main_v0 = W1 m ρ c (Proc.devRef .tc main_v0) := by
  show StableHlo.after hostOps1 (W1 m ρ c) (Proc.devRef .tc main_v0) = _
  after_results
theorem V2_arg1 (c : Dev nD) : V2 m ρ c main_arg1 = W1 m ρ c (Proc.devRef .tc main_arg1) := by
  show StableHlo.after hostOps1 (W1 m ρ c) (Proc.devRef .tc main_arg1) = _
  after_results
theorem V2_arg0 (c : Dev nD) : V2 m ρ c main_arg0 = W1 m ρ c (Proc.devRef .tc main_arg0) := by
  show StableHlo.after hostOps1 (W1 m ρ c) (Proc.devRef .tc main_arg0) = _
  after_results
theorem V2_arg2 (c : Dev nD) : V2 m ρ c main_arg2 = W1 m ρ c (Proc.devRef .tc main_arg2) := by
  show StableHlo.after hostOps1 (W1 m ρ c) (Proc.devRef .tc main_arg2) = _
  after_results

/-- After the second kernel the features and the indices are as launched, and its result holds what its
    write-backs leave. -/
theorem W3_arg0 (c : Dev nD) : W3 m ρ c (Proc.devRef .tc main_arg0) = m ((c : Thread nD τ).loc main_arg0) :=
  (W3_of_ne m ρ c main_arg0 (by decide)).trans ((V2_arg0 m ρ c).trans (W1_arg0 m ρ c))
theorem W3_arg2 (c : Dev nD) : W3 m ρ c (Proc.devRef .tc main_arg2) = m ((c : Thread nD τ).loc main_arg2) :=
  (W3_of_ne m ρ c main_arg2 (by decide)).trans ((V2_arg2 m ρ c).trans (W1_arg2 m ρ c))
theorem W3_v4 (c : Dev nD) : W3 m ρ c (Proc.devRef .tc main_v4) = (dat1 (V2 m ρ) c).arrAt 3 cfg1.N :=
  W3_arr m ρ c 3

/-- The host's last operations as one function of the features, the indices and the rows to scatter. -/
def tail (x : (⟨S8192x1024, .f32⟩ : BufTy).Contents (Elt F)) (ix : (⟨S8192, .i32⟩ : BufTy).Contents (Elt F))
    (u : (⟨S8192x1024, .f32⟩ : BufTy).Contents (Elt F)) : (⟨S8192x1024, .f32⟩ : BufTy).Contents (Elt F) :=
  Host.scatter scatter_S8192x1024_S8192x1_S8192x1024_1_0_0_1 (fun _ b => b) x
    (broadcastInDim S8192x1 ![0] bcast_S8192_S8192x1_0
      (select (cmpi .slt ix (broadcastInDim S8192 ![] bcast_S_S8192 (constantI S_ 32 0#32)))
        (addi ix (broadcastInDim S8192 ![] bcast_S_S8192 (constantI S_ 32 8192#32))) ix)) u

/-- The program's result: the tail of the launch features and indices and the second kernel's result. -/
theorem W4_v11 (c : Dev nD) : W4 m ρ c (Proc.devRef .tc main_v11)
    = tail (m ((c : Thread nD τ).loc main_arg0)) (m ((c : Thread nD τ).loc main_arg2)) ((dat1 (V2 m ρ) c).arrAt 3 cfg1.N) := by
  rw [← W3_arg0 m ρ c, ← W3_arg2 m ρ c, ← W3_v4 m ρ c]
  show StableHlo.after hostOps2 (W3 m ρ c) (Proc.devRef .tc main_v11) = _
  after_results
  rfl

end Cert.KernelIdeal.GcnHost
end
-- ==== Proof.RefValue.lean ====
/-
  The reference's product stage, read index by index, is the whole arrangement of the normalized aggregation:
  every entry of the adjacency matrix scaled by its row's and its column's normalizer, then one product with the
  feature matrix over all 8192 columns.

  The degree of row p is the initial value plus the sum of row p; the normalizer is the power -1/2 of the degree
  plus the epsilon, with an infinite result replaced by zero. Each stage of the reference reads its operands at an
  index computed from the result's index; those computed indices are identified with the coordinates they name, and
  the stages then compose to the closed form.
-/
import proofs.«146034_j69793218560049_2_alg».proof.Proof.Gen.ReferenceIdeal.Read
import proofs.«146034_j69793218560049_2_alg».proof.Proof.Forms

noncomputable section

namespace Cert.Gcn.Ref

open Idealize.ShloMosaic Idealize.ShloMosaic.ValueIdx Cert.ReferenceIdeal Cert.ReferenceIdeal.Read
open scoped BigOperators

/-! ## The computed indices, by coordinates -/

/-- The row sum at row p reads the adjacency matrix at (p, k). -/
theorem idx_v0 (p k : Fin 8192) : idx_main_v0 (ix1 p) k = ix2 p k :=
  funext fun a => Fin.ext (by match a with | ⟨0, _⟩ => rfl | ⟨1, _⟩ => rfl)

/-- The normalizer spread along the rows is read at the entry's row. -/
theorem idx_v7_v8 (p k : Fin 8192) : idx_main_v7 (idx_main_v8 (ix2 p k)) = ix1 p :=
  funext fun a => Fin.ext (by match a with | ⟨0, _⟩ => rfl)

/-- The normalizer spread along the columns is read at the entry's column. -/
theorem idx_v10_v11 (p k : Fin 8192) : idx_main_v10 (idx_main_v11 (ix2 p k)) = ix1 k :=
  funext fun a => Fin.ext (by match a with | ⟨0, _⟩ => rfl)

/-- The product's left operand at entry (p, q), term k, is read at (p, k). -/
theorem lidx_v13 (p : Fin 8192) (q : Fin 1024) (k : Fin 8192) : lidx_main_v13 (ix2 p q) k = ix2 p k :=
  funext fun a => Fin.ext (by match a with | ⟨0, _⟩ => rfl | ⟨1, _⟩ => rfl)

/-- The product's right operand at entry (p, q), term k, is read at (k, q). -/
theorem ridx_v13 (p : Fin 8192) (q : Fin 1024) (k : Fin 8192) : ridx_main_v13 (ix2 p q) k = ix2 k q :=
  funext fun a => Fin.ext (by match a with | ⟨0, _⟩ => rfl | ⟨1, _⟩ => rfl)

/-! ## The stages -/

/-- The normalizer stage at row p: the power -1/2 of the degree plus the epsilon, an infinite value replaced by zero. -/
theorem v6_eq (M : (⟨S8192x8192, .f32⟩ : BufTy).Contents (Elt Ideal)) (p : Fin 8192) :
    val_main_v6 (F := Ideal) M (ix1 p) = Cert.Gcn.dWhole M p := by
  rw [val_main_v6_apply, val_main_v5_apply, val_main_call0_v0_apply, val_main_call0_v1_apply,
    val_main_call0_cst_apply, val_main_call1_v1_apply, val_main_call1_v0_apply, val_main_cst_2_apply,
    val_main_v4_apply, val_main_v3_apply, val_main_cst_1_apply, val_main_v2_apply, val_main_v1_apply,
    val_main_cst_0_apply, val_main_v0_apply, val_main_cst_apply]
  simp only [Ideal.ofBits_def, Ideal.addf_def, Ideal.hostPowf_def, Ideal.hostAbsf_def, Ideal.absf_def,
    Ideal.cmpf_def, idx_v0]
  unfold Cert.Gcn.dWhole Cert.Gcn.nrmPow Cert.Gcn.clampInf Cert.Gcn.degWhole
  rfl

/-- The scaled adjacency matrix at (p, k): the entry times row p's normalizer times column k's normalizer. -/
theorem v12_eq (M : (⟨S8192x8192, .f32⟩ : BufTy).Contents (Elt Ideal)) (p k : Fin 8192) :
    val_main_v12 (F := Ideal) M (ix2 p k) = (M (ix2 p k) * Cert.Gcn.dWhole M p) * Cert.Gcn.dWhole M k := by
  rw [val_main_v12_apply, val_main_v9_apply, val_main_v8_apply, val_main_v7_apply, val_main_v11_apply,
    val_main_v10_apply, idx_v7_v8, idx_v10_v11, v6_eq, v6_eq]
  rfl

/-- The reference's product stage is the whole arrangement. -/
theorem ref_out (X : (⟨Cert.ReferenceIdeal.S8192x1024, .f32⟩ : BufTy).Contents (Elt Ideal))
    (M : (⟨Cert.ReferenceIdeal.S8192x8192, .f32⟩ : BufTy).Contents (Elt Ideal)) :
    Cert.ReferenceIdeal.Read.val_main_v13 (F := Ideal) X M = Cert.Gcn.outWhole X M := by
  funext i
  obtain ⟨p, q, rfl⟩ : ∃ (p : Fin 8192) (q : Fin 1024), i = ix2 p q := ⟨i 0, i 1, eq_ix2 i⟩
  rw [val_main_v13_apply]
  unfold Cert.Gcn.outWhole
  refine Finset.sum_congr rfl fun k _ => ?_
  rw [lidx_v13, ridx_v13, v12_eq]

end Cert.Gcn.Ref

end
-- ==== Proof.Value.lean ====
import proofs.«146034_j69793218560049_2_alg».proof.Defs
import proofs.«146034_j69793218560049_2_alg».proof.Proof.Gen.KernelIdeal.Frame
import proofs.«146034_j69793218560049_2_alg».proof.Proof.Gen.ReferenceIdeal.Run
import proofs.«146034_j69793218560049_2_alg».proof.Proof.Gen.ReferenceIdeal.Read
import proofs.«146034_j69793218560049_2_alg».proof.Proof.Forms
import proofs.«146034_j69793218560049_2_alg».proof.Proof.Algebra
import proofs.«146034_j69793218560049_2_alg».proof.Proof.Deg
import proofs.«146034_j69793218560049_2_alg».proof.Proof.Prod
import proofs.«146034_j69793218560049_2_alg».proof.Proof.Host
import proofs.«146034_j69793218560049_2_alg».proof.Proof.RefValue
import Idealize.ShloMosaic.Lib.Pipeline.Value
import Idealize.ShloMosaic.Lib.ValueIdx

set_option maxRecDepth 16384

noncomputable section

/-!
  The two programs' results are one function of the launch arrays.

  With X the features, M the adjacency matrix and d(p) the normalizer of row p's degree, the first kernel leaves the
  column d; the host scales X row by row to Y(k, q) = X(k, q) · d(k); the second kernel leaves
  (0 + sum over the four column blocks of M(p, ·) · Y(·, q)) · d(p); the reference forms (M(p, k) · d(p)) · d(k) and
  takes one product with X. For finite X and M every d is a real number and the two are equal, by distributing d(p)
  over the sum. Both programs then scatter these rows into X by the same normalized indices.
-/
namespace Cert.KernelIdeal.GcnValue
open Cert.KernelIdeal Cert.KernelIdeal.Gen Cert.Gcn
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-- The features and the adjacency matrix at launch. -/
abbrev X (c : Dev nD) : SX.Idx → EReal := m ((c : Thread nD τ).loc main_arg0)
abbrev M (c : Dev nD) : SM.Idx → EReal := m ((c : Thread nD τ).loc main_arg1)

/-- The first kernel's result column holds every row's normalizer. -/
theorem W1_col (c : Dev nD) : (W1 m ρ c (Proc.devRef .tc main_v0) : S8192x1.Idx → EReal) = GcnDeg.degCol (V0 m ρ) c :=
  (GcnHost.W1_v0 m ρ c).trans (GcnDeg.final_deg (V0 m ρ) c)

/-- The second kernel finds row p's normalizer in the column the first kernel left. -/
theorem col_eq (c : Dev nD) (p : Fin 8192) :
    GcnProd.ncol (V2 m ρ) c (ix2 p (0 : Fin 1)) = dBlocks (M m c) p := by
  unfold GcnProd.ncol
  rw [GcnHost.V2_v0, W1_col]
  rfl

/-- It finds the adjacency matrix as launched. -/
theorem adj_eq (c : Dev nD) : GcnProd.adj (V2 m ρ) c = M m c := by
  unfold GcnProd.adj
  rw [GcnHost.V2_arg1, GcnHost.W1_arg1]

/-- The second kernel finds the features scaled row by row by the normalizers. -/
theorem feat_eq (c : Dev nD) (k : Fin 8192) (q : Fin 1024) :
    GcnProd.feat (V2 m ρ) c (ix2 k q) = X m c (ix2 k q) * dBlocks (M m c) k := by
  have hA : (W1 m ρ c (Proc.devRef .tc main_arg0) : SX.Idx → EReal) = X m c := GcnHost.W1_arg0 m ρ c
  unfold GcnProd.feat
  rw [GcnHost.V2_v3, hA, W1_col]
  show X m c (ix2 k q)
    * broadcastInDim S8192x1024 ![0, 1] bcast_S8192x1_S8192x1024_0_1 (GcnDeg.degCol (V0 m ρ) c) (ix2 k q) = _
  rw [broadcastInDim_apply _ bcast_S8192x1_S8192x1024_0_1 _ (ix2 k q) (ix2 k (0 : Fin 1)) (fun a => match a with
    | ⟨0, _⟩ => by show k.val = if (8192 : Nat) = 1 then 0 else k.val; rw [if_neg (by decide)]
    | ⟨1, _⟩ => by show 0 = if (1 : Nat) = 1 then 0 else q.val; rw [if_pos rfl])]
  rfl

/-- So each column block's share is the blockwise arrangement's. -/
theorem part_eq (c : Dev nD) (p : Fin 8192) (q : Fin 1024) (b : Fin 4) :
    GcnProd.part (V2 m ρ) c p q b = prodPart (X m c) (M m c) p q b := by
  unfold GcnProd.part prodPart
  refine Finset.sum_congr rfl fun k _ => ?_
  rw [feat_eq, adj_eq]

/-- and the second kernel's entry (p, q) is the blockwise arrangement. -/
theorem prodOut_eq (c : Dev nD) (p : Fin 8192) (q : Fin 1024) :
    GcnProd.prodOut (V2 m ρ) c p q = outBlocks (X m c) (M m c) (ix2 p q) := by
  unfold GcnProd.prodOut outBlocks
  rw [part_eq, part_eq, part_eq, part_eq, col_eq]

/-- The common result: the rows of the whole arrangement scattered into the features. -/
def result (c : Dev nD) : Buf (Elt Ideal) ((c : Thread nD τ).loc main_v11) :=
  GcnHost.tail (m ((c : Thread nD τ).loc main_arg0)) (m ((c : Thread nD τ).loc main_arg2)) (outWhole (X m c) (M m c))

/-- The kernel program's result buffer ends at it, when the features and the matrix are finite. -/
theorem kernel_result (c : Dev nD) (hX : ∀ i, ∃ r : ℝ, X m c i = (r : EReal)) (hM : ∀ i, ∃ r : ℝ, M m c i = (r : EReal)) :
    W4 m ρ c (Proc.devRef .tc main_v11) = result m c := by
  rw [GcnHost.W4_v11, GcnProd.final_prod]
  unfold result
  congr 1
  funext i
  obtain ⟨p, q, rfl⟩ : ∃ (p : Fin 8192) (q : Fin 1024), i = ix2 p q := ⟨i 0, i 1, eq_ix2 i⟩
  show GcnProd.prodOut (V2 m ρ) c p q = _
  rw [prodOut_eq]
  exact outBlocks_eq_outWhole (X m c) (M m c) hX hM (ix2 p q)

end Cert.KernelIdeal.GcnValue

namespace Cert.ReferenceIdeal.GcnRef
open Cert.ReferenceIdeal Cert.ReferenceIdeal.Gen Cert.Gcn
open Idealize.ShloMosaic Idealize.ShloMosaic.TcCoe Idealize.SL.Sem

/-- The reference's result is the same function of the same arrays. -/
theorem ref_result (x0 : (⟨S8192x1024, .f32⟩ : BufTy).Contents (Elt Ideal)) (x1 : (⟨S8192x8192, .f32⟩ : BufTy).Contents (Elt Ideal))
    (x2 : (⟨S8192, .i32⟩ : BufTy).Contents (Elt Ideal)) :
    Read.val_main_v20 (F := Ideal) x0 x1 x2 = Cert.KernelIdeal.GcnHost.tail (F := Ideal) x0 x2 (outWhole x0 x1) := by
  unfold Read.val_main_v20
  rw [Cert.Gcn.Ref.ref_out]
  rfl

end Cert.ReferenceIdeal.GcnRef
end
-- ==== Proof.Finite.lean ====
/-
  The precondition on the inputs, read back: it states that every entry of the feature matrix and every entry of the
  adjacency matrix has a magnitude below +infinity, each matrix by one conjunction over all of its entries, the two
  joined by a conjunction. Over the extended reals an entry whose magnitude max(x, -x) is below +infinity is neither
  infinity, so it is a real number.
-/
import proofs.«146034_j69793218560049_2_alg».proof.Pre_finite_inputs
import proofs.«146034_j69793218560049_2_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Gcn.Finite

open Idealize.ShloMosaic Idealize.ShloMosaic.ValueIdx

/-- The scalar shape has one index. -/
instance scalarIdx_subsingleton : Subsingleton Cert.Pre_finite_inputs.S_.Idx := ⟨fun a b => funext fun d => d.elim0⟩

/-- The word the precondition compares with denotes +infinity. -/
theorem inf_word : Ideal.ofBits .f32 0x7F800000#32 = (⊤ : EReal) := by simp [Ideal.ofBits, Ideal.ieee]

/-- A one-bit word made from a truth value is 1 exactly when the value is true. -/
theorem ofBool_eq_one (b : Bool) : BitVec.ofBool b = 1#1 ↔ b = true := by cases b <;> decide

/-- An extended real whose magnitude is below +infinity is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One entry's comparison "magnitude below +infinity" came out true: the entry is a real number. -/
theorem elt_finite (x : Ideal .f32)
    (h : FloatOps.cmpf (F := Ideal) .olt (FloatOps.hostAbsf x) (FloatOps.ofBits .f32 0x7F800000#32) = 1#1) :
    ∃ r : ℝ, x = (r : EReal) := by
  rw [Ideal.cmpf_def, Ideal.hostAbsf_def, Ideal.absf_def, Ideal.ofBits_def, inf_word] at h
  unfold Ideal.cmp at h
  rw [ofBool_eq_one] at h
  exact real_of_abs_lt_top x (of_decide_eq_true h)

/-- The precondition read back: every entry of both matrices is a real number. -/
theorem finite_of_pre [Cert.Pre_finite_inputs.Facts] (x0 : FVec Ideal Cert.Pre_finite_inputs.S8192x1024 .f32)
    (x1 : FVec Ideal Cert.Pre_finite_inputs.S8192x8192 .f32) (x2 : IVec Cert.Pre_finite_inputs.S8192 32)
    (h : Cert.Pre_finite_inputs.fn (F := Ideal) x0 x1 x2 = (fun _ => 1#1)) :
    (∀ i, ∃ r : ℝ, x0 i = (r : EReal)) ∧ (∀ i, ∃ r : ℝ, x1 i = (r : EReal)) := by
  have e := congrFun h ix0
  unfold Cert.Pre_finite_inputs.fn at e
  dsimp only at e
  obtain ⟨e0, e1⟩ := IntOp.andi_eq_one.1 e
  refine ⟨fun i => ?_, fun i => ?_⟩
  · exact elt_finite (x0 i) (Host.reduce_andi_all _ _ _ _ _ e0 i)
  · exact elt_finite (x1 i) (Host.reduce_andi_all _ _ _ _ _ e1 i)

end Cert.Gcn.Finite

end
-- ==== Proof.lean ====
/-
  The certificate of a graph-convolution aggregation: the features X [8192, 1024] multiplied by the adjacency matrix
  M [8192, 8192] normalized symmetrically by its degrees, the resulting rows scattered into X by an index vector.

  With s(p) the sum of row p of M and d(p) the inverse square root of s(p) + eps, an infinite value replaced by 0,
  the reference scales every entry, A(p, k) = (M(p, k) · d(p)) · d(k), and takes one product A · X. The kernel
  program computes d in a first kernel (the row sums accumulated over four column blocks, the normalizer applied at
  the last), scales the features on the host to Y(k, q) = X(k, q) · d(k), and in a second kernel accumulates M · Y
  over four column blocks and scales row p of the result by d(p) at the last. Over the extended reals the two
  normalizers agree everywhere — the inverse square root is +infinity at 0 and junk -infinity below it, both sent to 0,
  and the real power -1/2 is 0 at 0 and below — and for finite X and M every d(p) is a real number, so d(p) distributes
  over the sum and the two arrangements are equal. The scatter is the same operation on the same operands.

  The three frames are the generated frame runs (the reference's is its generated run with the result dropped); the
  ideal pass rewrote nothing, so the idealization claim is trivial; the value claim runs the kernel program to its last
  boundary's contents and reads them back kernel by kernel.
-/
import proofs.«146034_j69793218560049_2_alg».proof.Defs
import proofs.«146034_j69793218560049_2_alg».proof.Proof.Gen.Kernel
import proofs.«146034_j69793218560049_2_alg».proof.Proof.Gen.Kernel.Skeleton
import proofs.«146034_j69793218560049_2_alg».proof.Proof.Gen.Kernel.Launch
import proofs.«146034_j69793218560049_2_alg».proof.Proof.Gen.Kernel.Points
import proofs.«146034_j69793218560049_2_alg».proof.Proof.Gen.Kernel.Frame
import proofs.«146034_j69793218560049_2_alg».proof.Proof.Gen.KernelIdeal
import proofs.«146034_j69793218560049_2_alg».proof.Proof.Gen.KernelIdeal.Skeleton
import proofs.«146034_j69793218560049_2_alg».proof.Proof.Gen.KernelIdeal.Launch
import proofs.«146034_j69793218560049_2_alg».proof.Proof.Gen.KernelIdeal.Points
import proofs.«146034_j69793218560049_2_alg».proof.Proof.Gen.KernelIdeal.Frame
import proofs.«146034_j69793218560049_2_alg».proof.Proof.Gen.ReferenceIdeal
import proofs.«146034_j69793218560049_2_alg».proof.Proof.Gen.ReferenceIdeal.Run
import proofs.«146034_j69793218560049_2_alg».proof.Proof.Gen.ReferenceIdeal.Read
import proofs.«146034_j69793218560049_2_alg».proof.Proof.Gen.Pre_finite_inputs
import proofs.«146034_j69793218560049_2_alg».proof.Proof.Run
import proofs.«146034_j69793218560049_2_alg».proof.Proof.Value
import proofs.«146034_j69793218560049_2_alg».proof.Proof.Finite
import Idealize.ShloMosaic.Adequacy
import Idealize.ShloMosaic.Init

noncomputable section

namespace Cert.Proof

open Idealize.ShloMosaic Idealize.SL.Sem

/-- The kernel program as printed runs, and its arguments end unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten: the idealization is the program's own text read over the extended reals. -/
theorem preserves : Cert.preserves_Kernel_KernelIdeal := trivial

/-- From memories agreeing on the arguments, finite by the precondition, both programs end with the rows of the
    normalized product scattered into the features. -/
theorem algebraic : Cert.algebraic_KernelIdeal_ReferenceIdeal := by
  intro m ρ m' ρ' hpre hagree
  have hfin := fun c => Cert.Gcn.Finite.finite_of_pre _ _ _ (hpre c)
  refine ⟨fun c => Cert.KernelIdeal.GcnValue.result m c, ?_, ?_⟩
  · exact (θ_run Cert.KernelIdeal.defs _ _).mono
      (fun r h c => ⟨(h c).1.trans (Cert.KernelIdeal.GcnValue.kernel_result m ρ c (hfin c).1 (hfin c).2), (h c).2⟩)
      (Cert.KernelIdeal.GcnRun.run (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v20_eq (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))).trans ?_
    rw [Cert.ReferenceIdeal.GcnRef.ref_result, (hagree c).1, (hagree c).2.1, (hagree c).2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
